-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192x13 : Shape := ⟨3, ![256, 8192, 13]⟩
abbrev S_ : Shape := ⟨0, ![]⟩

class Facts : Prop where
  bcast_S_S256x8192x13 : S_.BroadcastsInDim S256x8192x13 (![] : Fin 0 → Fin S256x8192x13.rank)
  reducesTo_S256x8192x13_S_d0_1_2 : S256x8192x13.ReducesTo [0, 1, 2] S_
  h_S_ : 0 < S_.numel

variable [Facts]

def fn {F : FTy → Type} [FloatOps F] (main_arg0 : FVec F S256x8192x13 .f32) (main_arg1 : FVec F S256x8192x13 .f32) : IVec S_ 1 :=
  let main_v0 : FVec F S256x8192x13 .f32 := Host.absf main_arg0
  let main_cst : FVec F S_ .f32 := constant S_ .f32 0x7F800000#32
  let main_v1 : FVec F S256x8192x13 .f32 := broadcastInDim S256x8192x13 ![] bcast_S_S256x8192x13 main_cst
  let main_v2 : IVec S256x8192x13 1 := cmpf .olt main_v0 main_v1
  let main_c : IVec S_ 1 := constantI S_ 1 1#1
  let main_v3 : IVec S_ 1 := (fun x v => Host.reduce IntOp.andi x v reducesTo_S256x8192x13_S_d0_1_2 h_S_) main_v2 main_c
  let main_v4 : FVec F S256x8192x13 .f32 := Host.absf main_arg1
  let main_cst_0 : FVec F S_ .f32 := constant S_ .f32 0x7F800000#32
  let main_v5 : FVec F S256x8192x13 .f32 := broadcastInDim S256x8192x13 ![] bcast_S_S256x8192x13 main_cst_0
  let main_v6 : IVec S256x8192x13 1 := cmpf .olt main_v4 main_v5
  let main_c_1 : IVec S_ 1 := constantI S_ 1 1#1
  let main_v7 : IVec S_ 1 := (fun x v => Host.reduce IntOp.andi x v reducesTo_S256x8192x13_S_d0_1_2 h_S_) main_v6 main_c_1
  let main_v8 : IVec S_ 1 := andi main_v3 main_v7
  main_v8
-- ==== Kernel.lean ====
abbrev S256x8192x13 : Shape := ⟨3, ![256, 8192, 13]⟩
abbrev S256x4x8x128 : Shape := ⟨4, ![256, 4, 8, 128]⟩
abbrev S256x32x13 : Shape := ⟨3, ![256, 32, 13]⟩
abbrev S1x4x8x128 : Shape := ⟨4, ![1, 4, 8, 128]⟩
abbrev S256x32x4 : Shape := ⟨3, ![256, 32, 4]⟩
abbrev S256x32x1 : Shape := ⟨3, ![256, 32, 1]⟩
abbrev S256x32 : Shape := ⟨2, ![256, 32]⟩
abbrev S256 : Shape := ⟨1, ![256]⟩
abbrev S256x1 : Shape := ⟨2, ![256, 1]⟩
abbrev S1 : Shape := ⟨1, ![1]⟩
abbrev S1x1 : Shape := ⟨2, ![1, 1]⟩
abbrev S256x32x8 : Shape := ⟨3, ![256, 32, 8]⟩
abbrev S8x128 : Shape := ⟨2, ![8, 128]⟩
abbrev S1x1x8x128 : Shape := ⟨4, ![1, 1, 8, 128]⟩
abbrev S256x4x1x1 : Shape := ⟨4, ![256, 4, 1, 1]⟩
abbrev S256x4 : Shape := ⟨2, ![256, 4]⟩
abbrev S_ : Shape := ⟨0, ![]⟩
abbrev S4 : Shape := ⟨1, ![4]⟩

abbrev nBuf : Space → Nat
  | .hbm => 34
  | .vmem => 6
  | .smem => 0
  | _ => 0

abbrev bufTy : (tb : Table) → Fin (tcTables nBuf tb) → BufTy
  | .hbm, ⟨0, _⟩ => ⟨S256x8192x13, .f32⟩
  | .hbm, ⟨1, _⟩ => ⟨S256x8192x13, .f32⟩
  | .hbm, ⟨2, _⟩ => ⟨S256x4x8x128, .f32⟩
  | .hbm, ⟨3, _⟩ => ⟨S256x4x1x1, .f32⟩
  | .hbm, ⟨4, _⟩ => ⟨S256x4, .f32⟩
  | .hbm, ⟨5, _⟩ => ⟨S_, .f32⟩
  | .hbm, ⟨6, _⟩ => ⟨S4, .f32⟩
  | .hbm, ⟨7, _⟩ => ⟨S1, .f32⟩
  | .hbm, ⟨8, _⟩ => ⟨S_, .f32⟩
  | .hbm, ⟨9, _⟩ => ⟨S1, .f32⟩
  | .hbm, ⟨10, _⟩ => ⟨S_, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S256x32x13, .f32⟩
  | .local _ .vmem, ⟨1, _⟩ => ⟨S256x32x13, .f32⟩
  | .local _ .vmem, ⟨2, _⟩ => ⟨S256x32x13, .f32⟩
  | .local _ .vmem, ⟨3, _⟩ => ⟨S256x32x13, .f32⟩
  | .local _ .vmem, ⟨4, _⟩ => ⟨S1x4x8x128, .f32⟩
  | .local _ .vmem, ⟨5, _⟩ => ⟨S1x4x8x128, .f32⟩
  | _, _ => ⟨S256x8192x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x32x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x32x13_S256x32x13_0_0_0 : ∀ a, (![0, 0, 0] : Fin 3 → Nat) a + S256x32x13.size a ≤ S256x32x13.size a
  h_S256x32x13 : 0 < S256x32x13.numel
  slices_S256x32x13_o0_0_0_S256x32x4 : S256x32x13.Slices ![0, 0, 0] S256x32x4
  slices_S256x32x4_o0_0_0_S256x32x1 : S256x32x4.Slices ![0, 0, 0] S256x32x1
  shapeCasts_S256x32x1_S256x32 : S256x32x1.ShapeCasts S256x32
  slices_S256x32x4_o0_0_1_S256x32x1 : S256x32x4.Slices ![0, 0, 1] S256x32x1
  slices_S256x32x4_o0_0_2_S256x32x1 : S256x32x4.Slices ![0, 0, 2] S256x32x1
  slices_S256x32x4_o0_0_3_S256x32x1 : S256x32x4.Slices ![0, 0, 3] S256x32x1
  reduces_S256x32_S256 : S256x32.Reduces [1] S256
  shapeCasts_S256_S256x1 : S256.ShapeCasts S256x1
  reduces_S256x1_S1 : S256x1.Reduces [0] S1
  shapeCasts_S1_S1x1 : S1.ShapeCasts S1x1
  reduces_S256x32x4_S256x32 : S256x32x4.Reduces [2] S256x32
  slices_S256x32x13_o0_0_12_S256x32x1 : S256x32x13.Slices ![0, 0, 12] S256x32x1
  slices_S256x32x13_o0_0_4_S256x32x8 : S256x32x13.Slices ![0, 0, 4] S256x32x8
  reduces_S256x32x8_S256x32 : S256x32x8.Reduces [2] S256x32
  shapeCasts_S1x1_S1x1 : S1x1.ShapeCasts S1x1
  broadcasts_S1x1_S8x128 : S1x1.Broadcasts S8x128
  inb_S1x4x8x128_S1x1x8x128_0_0_0_0 : ∀ a, (![0, 0, 0, 0] : Fin 4 → Nat) a + S1x1x8x128.size a ≤ S1x4x8x128.size a
  h_S1x1x8x128 : 0 < S1x1x8x128.numel
  shapeCasts_S1x1x8x128_S8x128 : S1x1x8x128.ShapeCasts S8x128
  shapeCasts_S8x128_S1x1x8x128 : S8x128.ShapeCasts S1x1x8x128
  inb_S1x4x8x128_S1x1x8x128_0_1_0_0 : ∀ a, (![0, 1, 0, 0] : Fin 4 → Nat) a + S1x1x8x128.size a ≤ S1x4x8x128.size a
  inb_S1x4x8x128_S1x1x8x128_0_2_0_0 : ∀ a, (![0, 2, 0, 0] : Fin 4 → Nat) a + S1x1x8x128.size a ≤ S1x4x8x128.size a
  inb_S1x4x8x128_S1x1x8x128_0_3_0_0 : ∀ a, (![0, 3, 0, 0] : Fin 4 → Nat) a + S1x1x8x128.size a ≤ S1x4x8x128.size a
  slices_S256x4x8x128_S256x4x1x1_0_0_0_0 : S256x4x8x128.Slices ![0, 0, 0, 0] S256x4x1x1
  shapeCasts_S256x4x1x1_S256x4 : S256x4x1x1.ShapeCasts S256x4
  reducesTo_S256x4_S4_d0 : S256x4.ReducesTo [0] S4
  h_S_ : 0 < S_.numel
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32x13.size a ≤ S256x8192x13.size a
  hwx0_0 : ∀ i : grid0.Coords, EltTy.bits .f32 = 32 ∨ (Rect.block (s := S256x8192x13) S256x32x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32x13.size a ≤ S256x8192x13.size a
  hwx0_1 : ∀ i : grid0.Coords, EltTy.bits .f32 = 32 ∨ (Rect.block (s := S256x8192x13) S256x32x13.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x8x128.size a ≤ S256x4x8x128.size a
  hwx0_2 : ∀ i : grid0.Coords, EltTy.bits .f32 = 32 ∨ (Rect.block (s := S256x4x8x128) S1x4x8x128.size (cc0_transform_2 i) (hinb0_2 i)).WholeWords (EltTy.packing .f32)

variable [Facts₀]

abbrev win0_0 : Pipeline.Window sig grid0 :=
  Pipeline.Window.ofSpec (Memref.whole main_arg0) S256x32x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x32x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x8192x13 : Shape := ⟨3, ![256, 8192, 13]⟩
abbrev S256x8192x4 : Shape := ⟨3, ![256, 8192, 4]⟩
abbrev S256x8192x1 : Shape := ⟨3, ![256, 8192, 1]⟩
abbrev S256x8192 : Shape := ⟨2, ![256, 8192]⟩
abbrev S_ : Shape := ⟨0, ![]⟩
abbrev S256x8192x8 : Shape := ⟨3, ![256, 8192, 8]⟩

abbrev nBuf : Space → Nat
  | .hbm => 150
  | .vmem => 0
  | .smem => 0
  | _ => 0

abbrev hbmTy0_0 (i : Nat) : BufTy := match i % 128 with
  | 0 => ⟨S256x8192x13, .f32⟩
  | 1 => ⟨S256x8192x13, .f32⟩
  | 2 => ⟨S256x8192x4, .f32⟩
  | 3 => ⟨S256x8192x4, .f32⟩
  | 4 => ⟨S256x8192x1, .f32⟩
  | 5 => ⟨S256x8192, .f32⟩
  | 6 => ⟨S256x8192x1, .f32⟩
  | 7 => ⟨S256x8192, .f32⟩
  | 8 => ⟨S256x8192, .f32⟩
  | 9 => ⟨S256x8192x1, .f32⟩
  | 10 => ⟨S256x8192, .f32⟩
  | 11 => ⟨S256x8192x1, .f32⟩
  | 12 => ⟨S256x8192, .f32⟩
  | 13 => ⟨S256x8192, .f32⟩
  | 14 => ⟨S256x8192x1, .f32⟩
  | 15 => ⟨S256x8192, .f32⟩
  | 16 => ⟨S256x8192x1, .f32⟩
  | 17 => ⟨S256x8192, .f32⟩
  | 18 => ⟨S256x8192, .f32⟩
  | 19 => ⟨S256x8192x1, .f32⟩
  | 20 => ⟨S256x8192, .f32⟩
  | 21 => ⟨S256x8192x1, .f32⟩
  | 22 => ⟨S256x8192, .f32⟩
  | 23 => ⟨S256x8192, .f32⟩
  | 24 => ⟨S256x8192, .f32⟩
  | 25 => ⟨S_, .f32⟩
  | 26 => ⟨S_, .f32⟩
  | 27 => ⟨S256x8192, .f32⟩
  | 28 => ⟨S256x8192, .f32⟩
  | 29 => ⟨S256x8192, .f32⟩
  | 30 => ⟨S_, .f32⟩
  | 31 => ⟨S_, .f32⟩
  | 32 => ⟨S256x8192, .f32⟩
  | 33 => ⟨S256x8192, .f32⟩
  | 34 => ⟨S256x8192, .f32⟩
  | 35 => ⟨S256x8192x1, .f32⟩
  | 36 => ⟨S256x8192, .f32⟩
  | 37 => ⟨S256x8192x1, .f32⟩
  | 38 => ⟨S256x8192, .f32⟩
  | 39 => ⟨S256x8192, .f32⟩
  | 40 => ⟨S256x8192x1, .f32⟩
  | 41 => ⟨S256x8192, .f32⟩
  | 42 => ⟨S256x8192x1, .f32⟩
  | 43 => ⟨S256x8192, .f32⟩
  | 44 => ⟨S256x8192, .f32⟩
  | 45 => ⟨S256x8192, .f32⟩
  | 46 => ⟨S256x8192x1, .f32⟩
  | 47 => ⟨S256x8192, .f32⟩
  | 48 => ⟨S256x8192x1, .f32⟩
  | 49 => ⟨S256x8192, .f32⟩
  | 50 => ⟨S256x8192, .f32⟩
  | 51 => ⟨S256x8192x1, .f32⟩
  | 52 => ⟨S256x8192, .f32⟩
  | 53 => ⟨S256x8192x1, .f32⟩
  | 54 => ⟨S256x8192, .f32⟩
  | 55 => ⟨S256x8192, .f32⟩
  | 56 => ⟨S256x8192, .f32⟩
  | 57 => ⟨S256x8192, .f32⟩
  | 58 => ⟨S256x8192, .f32⟩
  | 59 => ⟨S_, .f32⟩
  | 60 => ⟨S256x8192, .f32⟩
  | 61 => ⟨S256x8192, .f32⟩
  | 62 => ⟨S256x8192, .f32⟩
  | 63 => ⟨S_, .f32⟩
  | 64 => ⟨S256x8192, .f32⟩
  | 65 => ⟨S256x8192, .f32⟩
  | 66 => ⟨S256x8192, .f32⟩
  | 67 => ⟨S_, .f32⟩
  | 68 => ⟨S256x8192, .f32⟩
  | 69 => ⟨S256x8192, .i1⟩
  | 70 => ⟨S_, .f32⟩
  | 71 => ⟨S256x8192, .f32⟩
  | 72 => ⟨S256x8192, .f32⟩
  | 73 => ⟨S256x8192, .f32⟩
  | 74 => ⟨S_, .f32⟩
  | 75 => ⟨S256x8192, .f32⟩
  | 76 => ⟨S256x8192, .f32⟩
  | 77 => ⟨S256x8192, .f32⟩
  | 78 => ⟨S_, .f32⟩
  | 79 => ⟨S_, .f32⟩
  | 80 => ⟨S_, .f32⟩
  | 81 => ⟨S_, .f32⟩
  | 82 => ⟨S256x8192x4, .f32⟩
  | 83 => ⟨S256x8192x4, .f32⟩
  | 84 => ⟨S_, .f32⟩
  | 85 => ⟨S256x8192x4, .f32⟩
  | 86 => ⟨S256x8192x4, .i1⟩
  | 87 => ⟨S_, .f32⟩
  | 88 => ⟨S256x8192x4, .f32⟩
  | 89 => ⟨S256x8192x4, .f32⟩
  | 90 => ⟨S256x8192x4, .f32⟩
  | 91 => ⟨S_, .f32⟩
  | 92 => ⟨S256x8192x4, .f32⟩
  | 93 => ⟨S256x8192x4, .f32⟩
  | 94 => ⟨S256x8192x4, .f32⟩
  | 95 => ⟨S_, .f32⟩
  | 96 => ⟨S_, .f32⟩
  | 97 => ⟨S_, .f32⟩
  | 98 => ⟨S_, .f32⟩
  | 99 => ⟨S256x8192x1, .f32⟩
  | 100 => ⟨S256x8192, .f32⟩
  | 101 => ⟨S256x8192x1, .f32⟩
  | 102 => ⟨S256x8192, .f32⟩
  | 103 => ⟨S256x8192, .f32⟩
  | 104 => ⟨S256x8192, .f32⟩
  | 105 => ⟨S_, .f32⟩
  | 106 => ⟨S256x8192, .f32⟩
  | 107 => ⟨S256x8192, .i1⟩
  | 108 => ⟨S_, .f32⟩
  | 109 => ⟨S256x8192, .f32⟩
  | 110 => ⟨S256x8192, .f32⟩
  | 111 => ⟨S256x8192, .f32⟩
  | 112 => ⟨S_, .f32⟩
  | 113 => ⟨S256x8192, .f32⟩
  | 114 => ⟨S256x8192, .f32⟩
  | 115 => ⟨S256x8192, .f32⟩
  | 116 => ⟨S_, .f32⟩
  | 117 => ⟨S_, .f32⟩
  | 118 => ⟨S_, .f32⟩
  | 119 => ⟨S_, .f32⟩
  | 120 => ⟨S256x8192x8, .f32⟩
  | 121 => ⟨S256x8192x8, .f32⟩
  | 122 => ⟨S256x8192x8, .f32⟩
  | 123 => ⟨S256x8192x8, .f32⟩
  | 124 => ⟨S_, .f32⟩
  | 125 => ⟨S256x8192x8, .f32⟩
  | 126 => ⟨S256x8192x8, .i1⟩
  | 127 => ⟨S_, .f32⟩
  | _ => ⟨S256x8192x13, .f32⟩

abbrev hbmTy0_1 (i : Nat) : BufTy := match i % 128 with
  | 0 => ⟨S256x8192x8, .f32⟩
  | 1 => ⟨S256x8192x8, .f32⟩
  | 2 => ⟨S256x8192x8, .f32⟩
  | 3 => ⟨S_, .f32⟩
  | 4 => ⟨S256x8192x8, .f32⟩
  | 5 => ⟨S256x8192x8, .f32⟩
  | 6 => ⟨S256x8192x8, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | _ => ⟨S256x8192x13, .f32⟩

abbrev hbmTy (i : Nat) : BufTy := match i / 128 with
  | 0 => hbmTy0_0 i
  | 1 => hbmTy0_1 i
  | _ => ⟨S256x8192x13, .f32⟩

abbrev bufTy : (tb : Table) → Fin (tcTables nBuf tb) → BufTy
  | .hbm, ⟨i, _⟩ => hbmTy i
  | _, _ => ⟨S256x8192x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_1 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_2 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_3 : Ref sig .tc := ⟨.hbm, 67, rfl⟩
abbrev main_v57 : Ref sig .tc := ⟨.hbm, 68, rfl⟩
abbrev main_v58 : Ref sig .tc := ⟨.hbm, 69, rfl⟩
abbrev main_cst_4 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_5 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_6 : Ref sig .tc := ⟨.hbm, 78, rfl⟩
abbrev main_v65 : Ref sig .tc := ⟨.hbm, 79, rfl⟩
abbrev main_cst_7 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_8 : Ref sig .tc := ⟨.hbm, 84, rfl⟩
abbrev main_v69 : Ref sig .tc := ⟨.hbm, 85, rfl⟩
abbrev main_v70 : Ref sig .tc := ⟨.hbm, 86, rfl⟩
abbrev main_cst_9 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_10 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_11 : Ref sig .tc := ⟨.hbm, 95, rfl⟩
abbrev main_v77 : Ref sig .tc := ⟨.hbm, 96, rfl⟩
abbrev main_cst_12 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_13 : Ref sig .tc := ⟨.hbm, 105, rfl⟩
abbrev main_v85 : Ref sig .tc := ⟨.hbm, 106, rfl⟩
abbrev main_v86 : Ref sig .tc := ⟨.hbm, 107, rfl⟩
abbrev main_cst_14 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_15 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_16 : Ref sig .tc := ⟨.hbm, 116, rfl⟩
abbrev main_v93 : Ref sig .tc := ⟨.hbm, 117, rfl⟩
abbrev main_cst_17 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_18 : Ref sig .tc := ⟨.hbm, 124, rfl⟩
abbrev main_v99 : Ref sig .tc := ⟨.hbm, 125, rfl⟩
abbrev main_v100 : Ref sig .tc := ⟨.hbm, 126, rfl⟩
abbrev main_cst_19 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_20 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_21 : Ref sig .tc := ⟨.hbm, 135, rfl⟩
abbrev main_v107 : Ref sig .tc := ⟨.hbm, 136, rfl⟩
abbrev main_cst_22 : Ref sig .tc := ⟨.hbm, 137, rfl⟩
abbrev main_v108 : Ref sig .tc := ⟨.hbm, 138, rfl⟩
abbrev main_cst_23 : Ref sig .tc := ⟨.hbm, 139, rfl⟩
abbrev main_v109 : Ref sig .tc := ⟨.hbm, 140, rfl⟩
abbrev main_cst_24 : Ref sig .tc := ⟨.hbm, 141, rfl⟩
abbrev main_v110 : Ref sig .tc := ⟨.hbm, 142, rfl⟩
abbrev main_v111 : Ref sig .tc := ⟨.hbm, 143, rfl⟩
abbrev main_cst_25 : Ref sig .tc := ⟨.hbm, 144, rfl⟩
abbrev main_v112 : Ref sig .tc := ⟨.hbm, 145, rfl⟩
abbrev main_v113 : Ref sig .tc := ⟨.hbm, 146, rfl⟩
abbrev main_cst_26 : Ref sig .tc := ⟨.hbm, 147, rfl⟩
abbrev main_v114 : Ref sig .tc := ⟨.hbm, 148, rfl⟩
abbrev main_v115 : Ref sig .tc := ⟨.hbm, 149, rfl⟩

abbrev nD : Nat := 1
abbrev τ : Topo := Topo.v7x

variable {F : FTy → Type} [FloatOps F]

class Facts₀ : Prop where
  slices_S256x8192x13_S256x8192x4_0_0_0 : S256x8192x13.Slices ![0, 0, 0] S256x8192x4
  slices_S256x8192x4_S256x8192x1_0_0_0 : S256x8192x4.Slices ![0, 0, 0] S256x8192x1
  shapeCasts_S256x8192x1_S256x8192 : S256x8192x1.ShapeCasts S256x8192
  slices_S256x8192x4_S256x8192x1_0_0_1 : S256x8192x4.Slices ![0, 0, 1] S256x8192x1
  slices_S256x8192x4_S256x8192x1_0_0_2 : S256x8192x4.Slices ![0, 0, 2] S256x8192x1
  slices_S256x8192x4_S256x8192x1_0_0_3 : S256x8192x4.Slices ![0, 0, 3] S256x8192x1
  bcast_S_S256x8192 : S_.BroadcastsInDim S256x8192 (![] : Fin 0 → Fin S256x8192.rank)
  reducesTo_S256x8192_S_d0_1 : S256x8192.ReducesTo [0, 1] S_
  h_S_ : 0 < S_.numel
  bcast_S_S256x8192x4 : S_.BroadcastsInDim S256x8192x4 (![] : Fin 0 → Fin S256x8192x4.rank)
  reducesTo_S256x8192x4_S_d0_1_2 : S256x8192x4.ReducesTo [0, 1, 2] S_
  slices_S256x8192x13_S256x8192x1_0_0_12 : S256x8192x13.Slices ![0, 0, 12] S256x8192x1
  slices_S256x8192x13_S256x8192x8_0_0_4 : S256x8192x13.Slices ![0, 0, 4] S256x8192x8
  bcast_S_S256x8192x8 : S_.BroadcastsInDim S256x8192x8 (![] : Fin 0 → Fin S256x8192x8.rank)
  reducesTo_S256x8192x8_S_d0_1_2 : S256x8192x8.ReducesTo [0, 1, 2] S_

variable [Facts₀]

class Facts : Prop extends Facts₀ where

variable [Facts]
-- ==== Proof.LossSpec.lean ====
/-
  The loss both programs compute, as one function of the two argument arrays `T` (targets) and `P` (predictions),
  each of shape [256, N, 13] — N = 8192 for the whole arrays, N = 32 for one strip of 32 consecutive rows of them.

  Per box (b, r): the first four features are a box's corners; `boxLoss` is the smooth-L1 distance from 1 of the
  intersection-over-union of the target's and the prediction's box. Per feature: the smooth-L1 distance `huber` of
  the two arrays' entries — over the four corners (`cornerAt`), over the last feature (`lastAt`), over the eight
  middle features (`midAt`). The result is a fixed combination (`combine`) of the four totals over the whole arrays.

  The one law that joins a strip-by-strip evaluation to a whole-array one is re-association of a finite sum in the
  commutative monoid of the extended reals: the total over the rows of the whole array is the sum, over its 256
  strips, of the totals over the strips' 32 rows (`total_strips`). No finiteness of the entries is used.
-/
import Idealize.ShloMosaic.PureOps.Ideal
import Idealize.ShloMosaic.PureOps.Ideal.Laws
import Idealize.ShloMosaic.Lib.ValueIdx

noncomputable section

open scoped BigOperators

namespace Cert.Loss

open Idealize.ShloMosaic Idealize.ShloMosaic.ValueIdx

/-! ## The float words of the two programs (never evaluated: the same word stands on both sides) -/

/-- 0.0 -/
abbrev w0 : EReal := Ideal.ofBits .f32 0x00000000#32
/-- 1.0 -/
abbrev w1 : EReal := Ideal.ofBits .f32 0x3F800000#32
/-- 0.5 -/
abbrev wHalf : EReal := Ideal.ofBits .f32 0x3F000000#32
/-- the f32 nearest 1e-7 -/
abbrev wEps : EReal := Ideal.ofBits .f32 0x33D6BF95#32
/-- 2^21 = 256 · 8192, the number of boxes -/
abbrev wBoxes : EReal := Ideal.ofBits .f32 0x4A000000#32
/-- 2^23 = 256 · 8192 · 4 -/
abbrev wCorners : EReal := Ideal.ofBits .f32 0x4B000000#32
/-- 2^24 = 256 · 8192 · 8 -/
abbrev wMids : EReal := Ideal.ofBits .f32 0x4B800000#32

/-! ## One entry -/

/-- Smooth L1 of a difference `x`: with d = |x|, ½·d·d where d < 1, d − ½ elsewhere. -/
def huber (x : EReal) : EReal :=
  Scalar.select (Ideal.cmp .olt (max x (-x)) w1) (wHalf * max x (-x) * max x (-x)) (max x (-x) - wHalf)

/-- The clipped overlap of two boxes (corners (t0, t1), (t2, t3) and (p0, p1), (p2, p3)): width times height, each at least 0. -/
def overlap (t0 t1 t2 t3 p0 p1 p2 p3 : EReal) : EReal :=
  max w0 (min t2 p2 - max t0 p0) * max w0 (min t3 p3 - max t1 p1)

/-- Smooth L1 between 1 and the two boxes' intersection over union (the union's area plus the small word `wEps`). -/
def boxLoss (t0 t1 t2 t3 p0 p1 p2 p3 : EReal) : EReal :=
  huber (w1 - Ideal.div (overlap t0 t1 t2 t3 p0 p1 p2 p3)
    ((t2 - t0) * (t3 - t1) + (p2 - p0) * (p3 - p1) - overlap t0 t1 t2 t3 p0 p1 p2 p3 + wEps))

section Arrays
variable {N : Nat}

/-- Two arrays of N rows per batch entry and 13 features per row. -/
abbrev Arr (N : Nat) : Type := (⟨3, ![256, N, 13]⟩ : Shape).Idx → EReal

/-- The box term at batch entry `b`, row `r`. -/
def boxAt (T P : Arr N) (b : Fin 256) (r : Fin N) : EReal :=
  boxLoss (T (ix3 b r (0 : Fin 13))) (T (ix3 b r (1 : Fin 13))) (T (ix3 b r (2 : Fin 13))) (T (ix3 b r (3 : Fin 13)))
    (P (ix3 b r (0 : Fin 13))) (P (ix3 b r (1 : Fin 13))) (P (ix3 b r (2 : Fin 13))) (P (ix3 b r (3 : Fin 13)))

/-- The corner term at (b, r) and corner `f` (features 0 … 3). -/
def cornerAt (T P : Arr N) (b : Fin 256) (r : Fin N) (f : Fin 4) : EReal :=
  huber (T (ix3 b r (⟨f.val, by omega⟩ : Fin 13)) - P (ix3 b r (⟨f.val, by omega⟩ : Fin 13)))

/-- The last-feature term at (b, r) (feature 12). -/
def lastAt (T P : Arr N) (b : Fin 256) (r : Fin N) : EReal :=
  huber (T (ix3 b r (12 : Fin 13)) - P (ix3 b r (12 : Fin 13)))

/-- The middle term at (b, r) and middle feature `f` (features 4 … 11). -/
def midAt (T P : Arr N) (b : Fin 256) (r : Fin N) (f : Fin 8) : EReal :=
  huber (T (ix3 b r (⟨4 + f.val, by omega⟩ : Fin 13)) - P (ix3 b r (⟨4 + f.val, by omega⟩ : Fin 13)))

/-- The four totals over an array's rows. -/
def boxTotal (T P : Arr N) : EReal := ∑ b : Fin 256, ∑ r : Fin N, boxAt T P b r
def cornerTotal (T P : Arr N) : EReal := ∑ b : Fin 256, ∑ r : Fin N, ∑ f : Fin 4, cornerAt T P b r f
def lastTotal (T P : Arr N) : EReal := ∑ b : Fin 256, ∑ r : Fin N, lastAt T P b r
def midTotal (T P : Arr N) : EReal := ∑ b : Fin 256, ∑ r : Fin N, ∑ f : Fin 8, midAt T P b r f

end Arrays

/-! ## The result -/

/-- The four means (each total, from the word 0.0, divided by its count) combined with weights 1, 1, 1, ½, in the
    association both programs use. -/
def combine (s1 s2 s3 s4 : EReal) : EReal :=
  w1 * Ideal.div (w0 + s1) wBoxes + w1 * Ideal.div (w0 + s2) wCorners + w1 * Ideal.div (w0 + s3) wBoxes
    + wHalf * Ideal.div (w0 + s4) wMids

/-- The loss of the whole arrays. -/
def loss (T P : Arr 8192) : EReal :=
  combine (boxTotal T P) (cornerTotal T P) (lastTotal T P) (midTotal T P)

/-! ## Strips of 32 rows -/

/-- Strip `t` of an array: rows 32·t … 32·t + 31 of every batch entry. -/
def strip (T : Arr 8192) (t : Fin 256) : Arr 32 :=
  fun y => T (ix3 (y 0) (⟨32 * t.val + (y 1).val, by have h : (y 1).val < 32 := (y 1).isLt; have := t.isLt; show 32 * t.val + (y 1).val < 8192; omega⟩ : Fin 8192) (y 2))

/-- Row 32·t + r of the whole array. -/
abbrev rowOf (t : Fin 256) (r : Fin 32) : Fin 8192 := ⟨32 * t.val + r.val, by have := r.isLt; have := t.isLt; omega⟩

theorem strip_apply (T : Arr 8192) (t : Fin 256) (b : Fin 256) (r : Fin 32) (f : Fin 13) :
    strip T t (ix3 b r f) = T (ix3 b (rowOf t r) f) := rfl

theorem boxAt_strip (T P : Arr 8192) (t b : Fin 256) (r : Fin 32) :
    boxAt (strip T t) (strip P t) b r = boxAt T P b (rowOf t r) := rfl
theorem cornerAt_strip (T P : Arr 8192) (t b : Fin 256) (r : Fin 32) (f : Fin 4) :
    cornerAt (strip T t) (strip P t) b r f = cornerAt T P b (rowOf t r) f := rfl
theorem lastAt_strip (T P : Arr 8192) (t b : Fin 256) (r : Fin 32) :
    lastAt (strip T t) (strip P t) b r = lastAt T P b (rowOf t r) := rfl
theorem midAt_strip (T P : Arr 8192) (t b : Fin 256) (r : Fin 32) (f : Fin 8) :
    midAt (strip T t) (strip P t) b r f = midAt T P b (rowOf t r) f := rfl

/-! ## Sums over index sets -/

/-- A rank-3 index set is the product of its three coordinate ranges, so a sum over it is the triple sum. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The 8192 rows are 256 strips of 32: a sum over the rows is the sum over the strips of the sums over a strip's rows. -/
theorem sum_rows {M : Type*} [AddCommMonoid M] (g : Fin 8192 → M) :
    ∑ r : Fin 8192, g r = ∑ t : Fin 256, ∑ r : Fin 32, g (rowOf t r) := by
  rw [← Equiv.sum_comp (finProdFinEquiv (m := 256) (n := 32)) g, Fintype.sum_prod_type]
  refine Finset.sum_congr rfl fun t _ => Finset.sum_congr rfl fun r _ => congrArg g (Fin.ext ?_)
  show r.val + 32 * t.val = 32 * t.val + r.val
  omega

/-- Summing, over the strips, a sum over batch entries and a strip's rows is the sum over batch entries and all rows. -/
theorem sum_strips {M : Type*} [AddCommMonoid M] (g : Fin 256 → Fin 8192 → M) :
    ∑ t : Fin 256, ∑ b : Fin 256, ∑ r : Fin 32, g b (rowOf t r) = ∑ b : Fin 256, ∑ r : Fin 8192, g b r := by
  rw [Finset.sum_comm]
  exact Finset.sum_congr rfl fun b _ => (sum_rows (g b)).symm

/-! ## The law: the strips' totals add up to the whole array's -/

theorem boxTotal_strips (T P : Arr 8192) : ∑ t : Fin 256, boxTotal (strip T t) (strip P t) = boxTotal T P := by
  unfold boxTotal
  simp only [boxAt_strip]
  exact sum_strips fun b r => boxAt T P b r

theorem cornerTotal_strips (T P : Arr 8192) : ∑ t : Fin 256, cornerTotal (strip T t) (strip P t) = cornerTotal T P := by
  unfold cornerTotal
  simp only [cornerAt_strip]
  exact sum_strips fun b r => ∑ f : Fin 4, cornerAt T P b r f

theorem lastTotal_strips (T P : Arr 8192) : ∑ t : Fin 256, lastTotal (strip T t) (strip P t) = lastTotal T P := by
  unfold lastTotal
  simp only [lastAt_strip]
  exact sum_strips fun b r => lastAt T P b r

theorem midTotal_strips (T P : Arr 8192) : ∑ t : Fin 256, midTotal (strip T t) (strip P t) = midTotal T P := by
  unfold midTotal
  simp only [midAt_strip]
  exact sum_strips fun b r => ∑ f : Fin 8, midAt T P b r f

end Cert.Loss

end
-- ==== Proof.RefLoss.lean ====
/-
  The reference's result, read: it is the loss of `LossSpec` of its two arguments.

  The reference slices a feature out of an array and drops the unit axis; read at row (b, r) that is the array's entry
  (b, r, k) (`read_v…`: the reshape's row-major position (b·8192 + r) splits back into b and r). Everything between
  those reads and the four sums is pointwise, so each summand is the per-entry term of the specification
  (`ref_box`, `ref_corner`, `ref_last`, `ref_mid`); each float sum into a scalar is the word 0.0 plus the sum over
  every index, which is the iterated sum over the coordinates (`ref_boxTotal` …); and the last eleven scalar operations
  are `combine`.
-/
import proofs.«148467_j48945447306133_2_alg».proof.Proof.RefRead
import proofs.«148467_j48945447306133_2_alg».proof.Proof.LossSpec

noncomputable section

open scoped BigOperators

namespace Cert.ReferenceIdeal.RefLoss

open Cert.ReferenceIdeal Cert.ReferenceIdeal.ReadP Cert.Loss
open Idealize.ShloMosaic Idealize.ShloMosaic.ValueIdx

/-! ## A sliced feature at row (b, r) is the array's entry (b, r, k) -/

theorem read_v3 (x0 : (⟨S256x8192x13, .f32⟩ : BufTy).Contents (Elt Ideal)) (b : Fin 256) (r : Fin 8192) :
    val_main_v3 (F := Ideal) x0 (ix2 b r) = x0 (ix3 b r (0 : Fin 13)) := by
  rw [val_main_v3_apply, val_main_v2_apply, val_main_v0_apply]
  refine congrArg x0 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v5 (x1 : (⟨S256x8192x13, .f32⟩ : BufTy).Contents (Elt Ideal)) (b : Fin 256) (r : Fin 8192) :
    val_main_v5 (F := Ideal) x1 (ix2 b r) = x1 (ix3 b r (0 : Fin 13)) := by
  rw [val_main_v5_apply, val_main_v4_apply, val_main_v1_apply]
  refine congrArg x1 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v8 (x0 : (⟨S256x8192x13, .f32⟩ : BufTy).Contents (Elt Ideal)) (b : Fin 256) (r : Fin 8192) :
    val_main_v8 (F := Ideal) x0 (ix2 b r) = x0 (ix3 b r (1 : Fin 13)) := by
  rw [val_main_v8_apply, val_main_v7_apply, val_main_v0_apply]
  refine congrArg x0 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v10 (x1 : (⟨S256x8192x13, .f32⟩ : BufTy).Contents (Elt Ideal)) (b : Fin 256) (r : Fin 8192) :
    val_main_v10 (F := Ideal) x1 (ix2 b r) = x1 (ix3 b r (1 : Fin 13)) := by
  rw [val_main_v10_apply, val_main_v9_apply, val_main_v1_apply]
  refine congrArg x1 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v13 (x0 : (⟨S256x8192x13, .f32⟩ : BufTy).Contents (Elt Ideal)) (b : Fin 256) (r : Fin 8192) :
    val_main_v13 (F := Ideal) x0 (ix2 b r) = x0 (ix3 b r (2 : Fin 13)) := by
  rw [val_main_v13_apply, val_main_v12_apply, val_main_v0_apply]
  refine congrArg x0 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v15 (x1 : (⟨S256x8192x13, .f32⟩ : BufTy).Contents (Elt Ideal)) (b : Fin 256) (r : Fin 8192) :
    val_main_v15 (F := Ideal) x1 (ix2 b r) = x1 (ix3 b r (2 : Fin 13)) := by
  rw [val_main_v15_apply, val_main_v14_apply, val_main_v1_apply]
  refine congrArg x1 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v18 (x0 : (⟨S256x8192x13, .f32⟩ : BufTy).Contents (Elt Ideal)) (b : Fin 256) (r : Fin 8192) :
    val_main_v18 (F := Ideal) x0 (ix2 b r) = x0 (ix3 b r (3 : Fin 13)) := by
  rw [val_main_v18_apply, val_main_v17_apply, val_main_v0_apply]
  refine congrArg x0 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v20 (x1 : (⟨S256x8192x13, .f32⟩ : BufTy).Contents (Elt Ideal)) (b : Fin 256) (r : Fin 8192) :
    val_main_v20 (F := Ideal) x1 (ix2 b r) = x1 (ix3 b r (3 : Fin 13)) := by
  rw [val_main_v20_apply, val_main_v19_apply, val_main_v1_apply]
  refine congrArg x1 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v28 (x0 : (⟨S256x8192x13, .f32⟩ : BufTy).Contents (Elt Ideal)) (b : Fin 256) (r : Fin 8192) :
    val_main_v28 (F := Ideal) x0 (ix2 b r) = x0 (ix3 b r (2 : Fin 13)) := by
  rw [val_main_v28_apply, val_main_v27_apply, val_main_v0_apply]
  refine congrArg x0 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v30 (x0 : (⟨S256x8192x13, .f32⟩ : BufTy).Contents (Elt Ideal)) (b : Fin 256) (r : Fin 8192) :
    val_main_v30 (F := Ideal) x0 (ix2 b r) = x0 (ix3 b r (0 : Fin 13)) := by
  rw [val_main_v30_apply, val_main_v29_apply, val_main_v0_apply]
  refine congrArg x0 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v33 (x0 : (⟨S256x8192x13, .f32⟩ : BufTy).Contents (Elt Ideal)) (b : Fin 256) (r : Fin 8192) :
    val_main_v33 (F := Ideal) x0 (ix2 b r) = x0 (ix3 b r (3 : Fin 13)) := by
  rw [val_main_v33_apply, val_main_v32_apply, val_main_v0_apply]
  refine congrArg x0 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v35 (x0 : (⟨S256x8192x13, .f32⟩ : BufTy).Contents (Elt Ideal)) (b : Fin 256) (r : Fin 8192) :
    val_main_v35 (F := Ideal) x0 (ix2 b r) = x0 (ix3 b r (1 : Fin 13)) := by
  rw [val_main_v35_apply, val_main_v34_apply, val_main_v0_apply]
  refine congrArg x0 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v39 (x1 : (⟨S256x8192x13, .f32⟩ : BufTy).Contents (Elt Ideal)) (b : Fin 256) (r : Fin 8192) :
    val_main_v39 (F := Ideal) x1 (ix2 b r) = x1 (ix3 b r (2 : Fin 13)) := by
  rw [val_main_v39_apply, val_main_v38_apply, val_main_v1_apply]
  refine congrArg x1 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v41 (x1 : (⟨S256x8192x13, .f32⟩ : BufTy).Contents (Elt Ideal)) (b : Fin 256) (r : Fin 8192) :
    val_main_v41 (F := Ideal) x1 (ix2 b r) = x1 (ix3 b r (0 : Fin 13)) := by
  rw [val_main_v41_apply, val_main_v40_apply, val_main_v1_apply]
  refine congrArg x1 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v44 (x1 : (⟨S256x8192x13, .f32⟩ : BufTy).Contents (Elt Ideal)) (b : Fin 256) (r : Fin 8192) :
    val_main_v44 (F := Ideal) x1 (ix2 b r) = x1 (ix3 b r (3 : Fin 13)) := by
  rw [val_main_v44_apply, val_main_v43_apply, val_main_v1_apply]
  refine congrArg x1 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v46 (x1 : (⟨S256x8192x13, .f32⟩ : BufTy).Contents (Elt Ideal)) (b : Fin 256) (r : Fin 8192) :
    val_main_v46 (F := Ideal) x1 (ix2 b r) = x1 (ix3 b r (1 : Fin 13)) := by
  rw [val_main_v46_apply, val_main_v45_apply, val_main_v1_apply]
  refine congrArg x1 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v80 (x0 : (⟨S256x8192x13, .f32⟩ : BufTy).Contents (Elt Ideal)) (b : Fin 256) (r : Fin 8192) :
    val_main_v80 (F := Ideal) x0 (ix2 b r) = x0 (ix3 b r (12 : Fin 13)) := by
  rw [val_main_v80_apply, val_main_v79_apply]
  refine congrArg x0 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v82 (x1 : (⟨S256x8192x13, .f32⟩ : BufTy).Contents (Elt Ideal)) (b : Fin 256) (r : Fin 8192) :
    val_main_v82 (F := Ideal) x1 (ix2 b r) = x1 (ix3 b r (12 : Fin 13)) := by
  rw [val_main_v82_apply, val_main_v81_apply]
  refine congrArg x1 (funext fun a => Fin.ext ?_)
  have hb : b.val < 256 := b.isLt
  have hr : r.val < 8192 := r.isLt
  match a with
  | ⟨0, _⟩ => show (b.val * 8192 + r.val) / 8192 = b.val; omega
  | ⟨1, _⟩ => show (b.val * 8192 + r.val) / 1 % 8192 = r.val; omega
  | ⟨2, _⟩ => rfl
theorem read_v0 (x0 : (⟨S256x8192x13, .f32⟩ : BufTy).Contents (Elt Ideal)) (b : Fin 256) (r : Fin 8192) (f : Fin 4) :
    val_main_v0 (F := Ideal) x0 (ix3 b r f) = x0 (ix3 b r (⟨f.val, by omega⟩ : Fin 13)) := by
  rw [val_main_v0_apply]
  refine congrArg x0 (funext fun a => Fin.ext ?_)
  match a with
  | ⟨0, _⟩ => rfl
  | ⟨1, _⟩ => rfl
  | ⟨2, _⟩ => rfl
theorem read_v1 (x1 : (⟨S256x8192x13, .f32⟩ : BufTy).Contents (Elt Ideal)) (b : Fin 256) (r : Fin 8192) (f : Fin 4) :
    val_main_v1 (F := Ideal) x1 (ix3 b r f) = x1 (ix3 b r (⟨f.val, by omega⟩ : Fin 13)) := by
  rw [val_main_v1_apply]
  refine congrArg x1 (funext fun a => Fin.ext ?_)
  match a with
  | ⟨0, _⟩ => rfl
  | ⟨1, _⟩ => rfl
  | ⟨2, _⟩ => rfl
theorem read_v95 (x0 : (⟨S256x8192x13, .f32⟩ : BufTy).Contents (Elt Ideal)) (b : Fin 256) (r : Fin 8192) (f : Fin 8) :
    val_main_v95 (F := Ideal) x0 (ix3 b r f) = x0 (ix3 b r (⟨4 + f.val, by omega⟩ : Fin 13)) := by
  rw [val_main_v95_apply]
  refine congrArg x0 (funext fun a => Fin.ext ?_)
  match a with
  | ⟨0, _⟩ => rfl
  | ⟨1, _⟩ => rfl
  | ⟨2, _⟩ => rfl
theorem read_v96 (x1 : (⟨S256x8192x13, .f32⟩ : BufTy).Contents (Elt Ideal)) (b : Fin 256) (r : Fin 8192) (f : Fin 8) :
    val_main_v96 (F := Ideal) x1 (ix3 b r f) = x1 (ix3 b r (⟨4 + f.val, by omega⟩ : Fin 13)) := by
  rw [val_main_v96_apply]
  refine congrArg x1 (funext fun a => Fin.ext ?_)
  match a with
  | ⟨0, _⟩ => rfl
  | ⟨1, _⟩ => rfl
  | ⟨2, _⟩ => rfl

/-! ## The four summands are the specification's per-entry terms -/

theorem ref_box (x0 x1 : (⟨S256x8192x13, .f32⟩ : BufTy).Contents (Elt Ideal)) (b : Fin 256) (r : Fin 8192) :
    val_main_v64 (F := Ideal) x0 x1 (ix2 b r) = boxAt x0 x1 b r := by
  simp only [val_main_v6_apply, val_main_v11_apply, val_main_v16_apply, val_main_v21_apply, val_main_v22_apply, val_main_cst_apply, val_main_call0_v0_apply, val_main_call0_v1_apply, val_main_v23_apply, val_main_v24_apply, val_main_cst_0_apply, val_main_call1_v0_apply, val_main_call1_v1_apply, val_main_v25_apply, val_main_v26_apply, val_main_v31_apply, val_main_v36_apply, val_main_v37_apply, val_main_v42_apply, val_main_v47_apply, val_main_v48_apply, val_main_v49_apply, val_main_v50_apply, val_main_cst_1_apply, val_main_v51_apply, val_main_v52_apply, val_main_v53_apply, val_main_cst_2_apply, val_main_v54_apply, val_main_v55_apply, val_main_v56_apply, val_main_cst_3_apply, val_main_v57_apply, val_main_v58_apply, val_main_cst_4_apply, val_main_v59_apply, val_main_v60_apply, val_main_v61_apply, val_main_cst_5_apply, val_main_v62_apply, val_main_v63_apply, val_main_v64_apply, val_main_cst_6_apply, val_main_cst_7_apply, val_main_v66_apply, val_main_v67_apply, val_main_v68_apply, val_main_cst_8_apply, val_main_v69_apply, val_main_v70_apply, val_main_cst_9_apply, val_main_v71_apply, val_main_v72_apply, val_main_v73_apply, val_main_cst_10_apply, val_main_v74_apply, val_main_v75_apply, val_main_v76_apply, val_main_cst_11_apply, val_main_cst_12_apply, val_main_v78_apply, val_main_v83_apply, val_main_v84_apply, val_main_cst_13_apply, val_main_v85_apply, val_main_v86_apply, val_main_cst_14_apply, val_main_v87_apply, val_main_v88_apply, val_main_v89_apply, val_main_cst_15_apply, val_main_v90_apply, val_main_v91_apply, val_main_v92_apply, val_main_cst_16_apply, val_main_cst_17_apply, val_main_v94_apply, val_main_v97_apply, val_main_v98_apply, val_main_cst_18_apply, val_main_v99_apply, val_main_v100_apply, val_main_cst_19_apply, val_main_v101_apply, val_main_v102_apply, val_main_v103_apply, val_main_cst_20_apply, val_main_v104_apply, val_main_v105_apply, val_main_v106_apply, val_main_cst_21_apply, val_main_cst_22_apply, val_main_v108_apply, val_main_cst_23_apply, val_main_v109_apply, val_main_cst_24_apply, val_main_v110_apply, val_main_v111_apply, val_main_cst_25_apply, val_main_v112_apply, val_main_v113_apply, val_main_cst_26_apply, val_main_v114_apply, val_main_v115_apply,
    read_v3, read_v5, read_v8, read_v10, read_v13, read_v15, read_v18, read_v20, read_v28, read_v30, read_v33, read_v35,
    read_v39, read_v41, read_v44, read_v46]
  rfl

theorem ref_corner (x0 x1 : (⟨S256x8192x13, .f32⟩ : BufTy).Contents (Elt Ideal)) (b : Fin 256) (r : Fin 8192) (f : Fin 4) :
    val_main_v76 (F := Ideal) x0 x1 (ix3 b r f) = cornerAt x0 x1 b r f := by
  simp only [val_main_v6_apply, val_main_v11_apply, val_main_v16_apply, val_main_v21_apply, val_main_v22_apply, val_main_cst_apply, val_main_call0_v0_apply, val_main_call0_v1_apply, val_main_v23_apply, val_main_v24_apply, val_main_cst_0_apply, val_main_call1_v0_apply, val_main_call1_v1_apply, val_main_v25_apply, val_main_v26_apply, val_main_v31_apply, val_main_v36_apply, val_main_v37_apply, val_main_v42_apply, val_main_v47_apply, val_main_v48_apply, val_main_v49_apply, val_main_v50_apply, val_main_cst_1_apply, val_main_v51_apply, val_main_v52_apply, val_main_v53_apply, val_main_cst_2_apply, val_main_v54_apply, val_main_v55_apply, val_main_v56_apply, val_main_cst_3_apply, val_main_v57_apply, val_main_v58_apply, val_main_cst_4_apply, val_main_v59_apply, val_main_v60_apply, val_main_v61_apply, val_main_cst_5_apply, val_main_v62_apply, val_main_v63_apply, val_main_v64_apply, val_main_cst_6_apply, val_main_cst_7_apply, val_main_v66_apply, val_main_v67_apply, val_main_v68_apply, val_main_cst_8_apply, val_main_v69_apply, val_main_v70_apply, val_main_cst_9_apply, val_main_v71_apply, val_main_v72_apply, val_main_v73_apply, val_main_cst_10_apply, val_main_v74_apply, val_main_v75_apply, val_main_v76_apply, val_main_cst_11_apply, val_main_cst_12_apply, val_main_v78_apply, val_main_v83_apply, val_main_v84_apply, val_main_cst_13_apply, val_main_v85_apply, val_main_v86_apply, val_main_cst_14_apply, val_main_v87_apply, val_main_v88_apply, val_main_v89_apply, val_main_cst_15_apply, val_main_v90_apply, val_main_v91_apply, val_main_v92_apply, val_main_cst_16_apply, val_main_cst_17_apply, val_main_v94_apply, val_main_v97_apply, val_main_v98_apply, val_main_cst_18_apply, val_main_v99_apply, val_main_v100_apply, val_main_cst_19_apply, val_main_v101_apply, val_main_v102_apply, val_main_v103_apply, val_main_cst_20_apply, val_main_v104_apply, val_main_v105_apply, val_main_v106_apply, val_main_cst_21_apply, val_main_cst_22_apply, val_main_v108_apply, val_main_cst_23_apply, val_main_v109_apply, val_main_cst_24_apply, val_main_v110_apply, val_main_v111_apply, val_main_cst_25_apply, val_main_v112_apply, val_main_v113_apply, val_main_cst_26_apply, val_main_v114_apply, val_main_v115_apply, read_v0, read_v1]
  rfl

theorem ref_last (x0 x1 : (⟨S256x8192x13, .f32⟩ : BufTy).Contents (Elt Ideal)) (b : Fin 256) (r : Fin 8192) :
    val_main_v92 (F := Ideal) x0 x1 (ix2 b r) = lastAt x0 x1 b r := by
  simp only [val_main_v6_apply, val_main_v11_apply, val_main_v16_apply, val_main_v21_apply, val_main_v22_apply, val_main_cst_apply, val_main_call0_v0_apply, val_main_call0_v1_apply, val_main_v23_apply, val_main_v24_apply, val_main_cst_0_apply, val_main_call1_v0_apply, val_main_call1_v1_apply, val_main_v25_apply, val_main_v26_apply, val_main_v31_apply, val_main_v36_apply, val_main_v37_apply, val_main_v42_apply, val_main_v47_apply, val_main_v48_apply, val_main_v49_apply, val_main_v50_apply, val_main_cst_1_apply, val_main_v51_apply, val_main_v52_apply, val_main_v53_apply, val_main_cst_2_apply, val_main_v54_apply, val_main_v55_apply, val_main_v56_apply, val_main_cst_3_apply, val_main_v57_apply, val_main_v58_apply, val_main_cst_4_apply, val_main_v59_apply, val_main_v60_apply, val_main_v61_apply, val_main_cst_5_apply, val_main_v62_apply, val_main_v63_apply, val_main_v64_apply, val_main_cst_6_apply, val_main_cst_7_apply, val_main_v66_apply, val_main_v67_apply, val_main_v68_apply, val_main_cst_8_apply, val_main_v69_apply, val_main_v70_apply, val_main_cst_9_apply, val_main_v71_apply, val_main_v72_apply, val_main_v73_apply, val_main_cst_10_apply, val_main_v74_apply, val_main_v75_apply, val_main_v76_apply, val_main_cst_11_apply, val_main_cst_12_apply, val_main_v78_apply, val_main_v83_apply, val_main_v84_apply, val_main_cst_13_apply, val_main_v85_apply, val_main_v86_apply, val_main_cst_14_apply, val_main_v87_apply, val_main_v88_apply, val_main_v89_apply, val_main_cst_15_apply, val_main_v90_apply, val_main_v91_apply, val_main_v92_apply, val_main_cst_16_apply, val_main_cst_17_apply, val_main_v94_apply, val_main_v97_apply, val_main_v98_apply, val_main_cst_18_apply, val_main_v99_apply, val_main_v100_apply, val_main_cst_19_apply, val_main_v101_apply, val_main_v102_apply, val_main_v103_apply, val_main_cst_20_apply, val_main_v104_apply, val_main_v105_apply, val_main_v106_apply, val_main_cst_21_apply, val_main_cst_22_apply, val_main_v108_apply, val_main_cst_23_apply, val_main_v109_apply, val_main_cst_24_apply, val_main_v110_apply, val_main_v111_apply, val_main_cst_25_apply, val_main_v112_apply, val_main_v113_apply, val_main_cst_26_apply, val_main_v114_apply, val_main_v115_apply, read_v80, read_v82]
  rfl

theorem ref_mid (x0 x1 : (⟨S256x8192x13, .f32⟩ : BufTy).Contents (Elt Ideal)) (b : Fin 256) (r : Fin 8192) (f : Fin 8) :
    val_main_v106 (F := Ideal) x0 x1 (ix3 b r f) = midAt x0 x1 b r f := by
  simp only [val_main_v6_apply, val_main_v11_apply, val_main_v16_apply, val_main_v21_apply, val_main_v22_apply, val_main_cst_apply, val_main_call0_v0_apply, val_main_call0_v1_apply, val_main_v23_apply, val_main_v24_apply, val_main_cst_0_apply, val_main_call1_v0_apply, val_main_call1_v1_apply, val_main_v25_apply, val_main_v26_apply, val_main_v31_apply, val_main_v36_apply, val_main_v37_apply, val_main_v42_apply, val_main_v47_apply, val_main_v48_apply, val_main_v49_apply, val_main_v50_apply, val_main_cst_1_apply, val_main_v51_apply, val_main_v52_apply, val_main_v53_apply, val_main_cst_2_apply, val_main_v54_apply, val_main_v55_apply, val_main_v56_apply, val_main_cst_3_apply, val_main_v57_apply, val_main_v58_apply, val_main_cst_4_apply, val_main_v59_apply, val_main_v60_apply, val_main_v61_apply, val_main_cst_5_apply, val_main_v62_apply, val_main_v63_apply, val_main_v64_apply, val_main_cst_6_apply, val_main_cst_7_apply, val_main_v66_apply, val_main_v67_apply, val_main_v68_apply, val_main_cst_8_apply, val_main_v69_apply, val_main_v70_apply, val_main_cst_9_apply, val_main_v71_apply, val_main_v72_apply, val_main_v73_apply, val_main_cst_10_apply, val_main_v74_apply, val_main_v75_apply, val_main_v76_apply, val_main_cst_11_apply, val_main_cst_12_apply, val_main_v78_apply, val_main_v83_apply, val_main_v84_apply, val_main_cst_13_apply, val_main_v85_apply, val_main_v86_apply, val_main_cst_14_apply, val_main_v87_apply, val_main_v88_apply, val_main_v89_apply, val_main_cst_15_apply, val_main_v90_apply, val_main_v91_apply, val_main_v92_apply, val_main_cst_16_apply, val_main_cst_17_apply, val_main_v94_apply, val_main_v97_apply, val_main_v98_apply, val_main_cst_18_apply, val_main_v99_apply, val_main_v100_apply, val_main_cst_19_apply, val_main_v101_apply, val_main_v102_apply, val_main_v103_apply, val_main_cst_20_apply, val_main_v104_apply, val_main_v105_apply, val_main_v106_apply, val_main_cst_21_apply, val_main_cst_22_apply, val_main_v108_apply, val_main_cst_23_apply, val_main_v109_apply, val_main_cst_24_apply, val_main_v110_apply, val_main_v111_apply, val_main_cst_25_apply, val_main_v112_apply, val_main_v113_apply, val_main_cst_26_apply, val_main_v114_apply, val_main_v115_apply, read_v95, read_v96]
  rfl

/-! ## The four sums are the word 0.0 plus the specification's totals -/

theorem ref_boxTotal (x0 x1 : (⟨S256x8192x13, .f32⟩ : BufTy).Contents (Elt Ideal)) (i : S_.Idx) :
    val_main_v65 (F := Ideal) x0 x1 i = w0 + boxTotal x0 x1 := by
  rw [val_main_v65_apply]
  refine congrArg (w0 + ·) ?_
  refine (sum_idx2 _).trans ?_
  exact Finset.sum_congr rfl fun b _ => Finset.sum_congr rfl fun r _ => ref_box x0 x1 b r

theorem ref_cornerTotal (x0 x1 : (⟨S256x8192x13, .f32⟩ : BufTy).Contents (Elt Ideal)) (i : S_.Idx) :
    val_main_v77 (F := Ideal) x0 x1 i = w0 + cornerTotal x0 x1 := by
  rw [val_main_v77_apply]
  refine congrArg (w0 + ·) ?_
  refine (sum_idx3 _).trans ?_
  exact Finset.sum_congr rfl fun b _ => Finset.sum_congr rfl fun r _ => Finset.sum_congr rfl fun f _ => ref_corner x0 x1 b r f

theorem ref_lastTotal (x0 x1 : (⟨S256x8192x13, .f32⟩ : BufTy).Contents (Elt Ideal)) (i : S_.Idx) :
    val_main_v93 (F := Ideal) x0 x1 i = w0 + lastTotal x0 x1 := by
  rw [val_main_v93_apply]
  refine congrArg (w0 + ·) ?_
  refine (sum_idx2 _).trans ?_
  exact Finset.sum_congr rfl fun b _ => Finset.sum_congr rfl fun r _ => ref_last x0 x1 b r

theorem ref_midTotal (x0 x1 : (⟨S256x8192x13, .f32⟩ : BufTy).Contents (Elt Ideal)) (i : S_.Idx) :
    val_main_v107 (F := Ideal) x0 x1 i = w0 + midTotal x0 x1 := by
  rw [val_main_v107_apply]
  refine congrArg (w0 + ·) ?_
  refine (sum_idx3 _).trans ?_
  exact Finset.sum_congr rfl fun b _ => Finset.sum_congr rfl fun r _ => Finset.sum_congr rfl fun f _ => ref_mid x0 x1 b r f

/-! ## The result -/

/-- The reference's result, at its one index, is the loss of its two arguments. -/
theorem ref_loss (x0 x1 : (⟨S256x8192x13, .f32⟩ : BufTy).Contents (Elt Ideal)) (i : S_.Idx) :
    val_main_v115 (F := Ideal) x0 x1 i = loss x0 x1 := by
  simp only [val_main_v6_apply, val_main_v11_apply, val_main_v16_apply, val_main_v21_apply, val_main_v22_apply, val_main_cst_apply, val_main_call0_v0_apply, val_main_call0_v1_apply, val_main_v23_apply, val_main_v24_apply, val_main_cst_0_apply, val_main_call1_v0_apply, val_main_call1_v1_apply, val_main_v25_apply, val_main_v26_apply, val_main_v31_apply, val_main_v36_apply, val_main_v37_apply, val_main_v42_apply, val_main_v47_apply, val_main_v48_apply, val_main_v49_apply, val_main_v50_apply, val_main_cst_1_apply, val_main_v51_apply, val_main_v52_apply, val_main_v53_apply, val_main_cst_2_apply, val_main_v54_apply, val_main_v55_apply, val_main_v56_apply, val_main_cst_3_apply, val_main_v57_apply, val_main_v58_apply, val_main_cst_4_apply, val_main_v59_apply, val_main_v60_apply, val_main_v61_apply, val_main_cst_5_apply, val_main_v62_apply, val_main_v63_apply, val_main_v64_apply, val_main_cst_6_apply, val_main_cst_7_apply, val_main_v66_apply, val_main_v67_apply, val_main_v68_apply, val_main_cst_8_apply, val_main_v69_apply, val_main_v70_apply, val_main_cst_9_apply, val_main_v71_apply, val_main_v72_apply, val_main_v73_apply, val_main_cst_10_apply, val_main_v74_apply, val_main_v75_apply, val_main_v76_apply, val_main_cst_11_apply, val_main_cst_12_apply, val_main_v78_apply, val_main_v83_apply, val_main_v84_apply, val_main_cst_13_apply, val_main_v85_apply, val_main_v86_apply, val_main_cst_14_apply, val_main_v87_apply, val_main_v88_apply, val_main_v89_apply, val_main_cst_15_apply, val_main_v90_apply, val_main_v91_apply, val_main_v92_apply, val_main_cst_16_apply, val_main_cst_17_apply, val_main_v94_apply, val_main_v97_apply, val_main_v98_apply, val_main_cst_18_apply, val_main_v99_apply, val_main_v100_apply, val_main_cst_19_apply, val_main_v101_apply, val_main_v102_apply, val_main_v103_apply, val_main_cst_20_apply, val_main_v104_apply, val_main_v105_apply, val_main_v106_apply, val_main_cst_21_apply, val_main_cst_22_apply, val_main_v108_apply, val_main_cst_23_apply, val_main_v109_apply, val_main_cst_24_apply, val_main_v110_apply, val_main_v111_apply, val_main_cst_25_apply, val_main_v112_apply, val_main_v113_apply, val_main_cst_26_apply, val_main_v114_apply, val_main_v115_apply, ref_boxTotal, ref_cornerTotal, ref_lastTotal, ref_midTotal]
  rfl

end Cert.ReferenceIdeal.RefLoss

end
-- ==== Proof.BlockLayout.lean ====
/-
  Layout operations and one-axis sums read at coordinates, for vectors of rank at most three with a feature axis last:
  a unit-stride slice along the last axis reads the operand at the shifted feature; dropping a trailing unit axis,
  or adding one, keeps the row-major position; a sum over one axis of a vector of extended reals is the sum over that
  axis's coordinate, the other coordinates held.
-/
import Idealize.ShloMosaic.PureOps.Ideal.Laws
import Idealize.ShloMosaic.Lib.ValueIdx
import Idealize.ShloMosaic.Lib.Pipeline.Value

noncomputable section

open scoped BigOperators

namespace Cert.Loss.Layout

open Idealize.ShloMosaic Idealize.ShloMosaic.ValueIdx

variable {α : Type}

/-- A unit-stride slice along the last axis of a rank-3 vector, at offset `o`: entry (a, b, c) is the operand's (a, b, o + c). -/
theorem slice_last {n0 n1 n2 m2 : Nat} (o : Nat) (x : (⟨3, ![n0, n1, n2]⟩ : Shape).Idx → α)
    (h : (⟨3, ![n0, n1, n2]⟩ : Shape).Slices ![0, 0, o] ⟨3, ![n0, n1, m2]⟩) (a : Fin n0) (b : Fin n1) (c : Fin m2) (c' : Fin n2)
    (hc : c'.val = o + c.val) :
    extractStridedSlice ⟨3, ![n0, n1, m2]⟩ ![0, 0, o] x h (ix3 a b c) = x (ix3 a b c') :=
  extractStridedSlice_apply ![0, 0, o] x h (ix3 a b c) (ix3 a b c') fun d => match d with
    | ⟨0, _⟩ => by show a.val = 0 + a.val; omega
    | ⟨1, _⟩ => by show b.val = 0 + b.val; omega
    | ⟨2, _⟩ => by show c'.val = o + c.val; exact hc

/-- Dropping a trailing unit axis: entry (a, b) is the operand's (a, b, 0). -/
theorem drop_last {n0 n1 : Nat} (v : (⟨3, ![n0, n1, 1]⟩ : Shape).Idx → α)
    (h : (⟨3, ![n0, n1, 1]⟩ : Shape).ShapeCasts ⟨2, ![n0, n1]⟩) (a : Fin n0) (b : Fin n1) :
    shapeCast ⟨2, ![n0, n1]⟩ v h (ix2 a b) = v (ix3 a b (0 : Fin 1)) :=
  shapeCast_apply v h (ix2 a b) (ix3 a b (0 : Fin 1)) (by
    rw [Shape.rowMajor_val_three, Shape.rowMajor_val_two]
    show (a.val * n1 + b.val) * 1 + 0 = a.val * n1 + b.val
    omega)

/-- Adding a trailing unit axis to a rank-1 vector: entry (a, 0) is the operand's a. -/
theorem add_last {n0 : Nat} (v : (⟨1, ![n0]⟩ : Shape).Idx → α)
    (h : (⟨1, ![n0]⟩ : Shape).ShapeCasts ⟨2, ![n0, 1]⟩) (a : Fin n0) :
    shapeCast ⟨2, ![n0, 1]⟩ v h (ix2 a (0 : Fin 1)) = v (ix1 a) :=
  shapeCast_apply v h (ix2 a (0 : Fin 1)) (ix1 a) (by
    rw [Shape.rowMajor_val_one, Shape.rowMajor_val_two]
    show a.val = a.val * 1 + 0
    omega)

/-- A float sum over the last axis of a rank-3 vector, at (a, b): the sum over the feature. -/
theorem sum_axis2 {n0 n1 n2 : Nat} (v : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = FKind.add.neutral .f32 hφ) (a : Fin n0) (b : Fin n1) :
    multiReduction .add [2] ⟨2, ![n0, n1]⟩ v 0x00000000#32 h hφ hacc (ix2 a b) = ∑ c : Fin n2, v (ix3 a b c) := by
  refine (Ideal.multiReduction_add_single v _ h hφ hacc (ix2 a b)).trans ?_
  refine Finset.sum_congr rfl fun c _ => congrArg v (funext fun d => Fin.ext ?_)
  match d with
  | ⟨0, _⟩ => rfl
  | ⟨1, _⟩ => rfl
  | ⟨2, _⟩ => rfl

/-- A float sum over the second axis of a rank-2 vector, at a: the sum over the row. -/
theorem sum_axis1 {n0 n1 : Nat} (v : FVec Ideal ⟨2, ![n0, n1]⟩ .f32)
    (h : (⟨2, ![n0, n1]⟩ : Shape).Reduces [1] ⟨1, ![n0]⟩) (hφ : FKind.Formats .f32)
    (hacc : (0x00000000#32 : BitVec 32) = FKind.add.neutral .f32 hφ) (a : Fin n0) :
    multiReduction .add [1] ⟨1, ![n0]⟩ v 0x00000000#32 h hφ hacc (ix1 a) = ∑ b : Fin n1, v (ix2 a b) := by
  refine (Ideal.multiReduction_add_single v _ h hφ hacc (ix1 a)).trans ?_
  refine Finset.sum_congr rfl fun b _ => congrArg v (funext fun d => Fin.ext ?_)
  match d with
  | ⟨0, _⟩ => rfl
  | ⟨1, _⟩ => rfl

/-- A float sum over the first axis of a rank-2 vector with a unit second axis, at 0: the sum over the first coordinate. -/
theorem sum_axis0 {n0 : Nat} (v : FVec Ideal ⟨2, ![n0, 1]⟩ .f32)
    (h : (⟨2, ![n0, 1]⟩ : Shape).Reduces [0] ⟨1, ![1]⟩) (hφ : FKind.Formats .f32)
    (hacc : (0x00000000#32 : BitVec 32) = FKind.add.neutral .f32 hφ) :
    multiReduction .add [0] ⟨1, ![1]⟩ v 0x00000000#32 h hφ hacc (ix1 (0 : Fin 1)) = ∑ a : Fin n0, v (ix2 a (0 : Fin 1)) := by
  refine (Ideal.multiReduction_add_single v _ h hφ hacc (ix1 (0 : Fin 1))).trans ?_
  refine Finset.sum_congr rfl fun a _ => congrArg v (funext fun d => Fin.ext ?_)
  match d with
  | ⟨0, _⟩ => rfl
  | ⟨1, _⟩ => rfl

/-- An 8×128 tile viewed as a [1, 1, 8, 128] block: entry (0, 0, s, l) is the tile's (s, l). -/
theorem tile_cast (v : (⟨2, ![8, 128]⟩ : Shape).Idx → α)
    (h : (⟨2, ![8, 128]⟩ : Shape).ShapeCasts ⟨4, ![1, 1, 8, 128]⟩) (a0 a1 : Fin 1) (s : Fin 8) (l : Fin 128) :
    shapeCast ⟨4, ![1, 1, 8, 128]⟩ v h (ix4 a0 a1 s l) = v (ix2 s l) :=
  shapeCast_apply v h (ix4 a0 a1 s l) (ix2 s l) (by
    rw [Shape.rowMajor_val_two, Shape.rowMajor_val_four]
    have h0 : a0.val < 1 := a0.isLt
    have h1 : a1.val < 1 := a1.isLt
    show s.val * 128 + l.val = ((a0.val * 1 + a1.val) * 8 + s.val) * 128 + l.val
    omega)

/-- A 1×1 vector broadcast over an 8×128 tile: every entry is the one entry. -/
theorem bcast_scalar (w : (⟨2, ![1, 1]⟩ : Shape).Idx → α)
    (h : (⟨2, ![1, 1]⟩ : Shape).Broadcasts ⟨2, ![8, 128]⟩) (s : Fin 8) (l : Fin 128) :
    broadcastTo ⟨2, ![8, 128]⟩ w h (ix2 s l) = w (ix2 (0 : Fin 1) (0 : Fin 1)) :=
  broadcastTo_apply w h (ix2 s l) (ix2 (0 : Fin 1) (0 : Fin 1)) fun a => match a with
    | ⟨0, _⟩ => rfl
    | ⟨1, _⟩ => rfl

/-- A one-element vector viewed as a scalar: its one entry. -/
theorem one_to_scalar (v : (⟨1, ![1]⟩ : Shape).Idx → α) (h : (⟨1, ![1]⟩ : Shape).ShapeCasts ⟨0, ![]⟩)
    (i : (⟨0, ![]⟩ : Shape).Idx) : shapeCast ⟨0, ![]⟩ v h i = v (ix1 (0 : Fin 1)) :=
  shapeCast_apply v h i (ix1 (0 : Fin 1)) (by
    rw [Shape.rowMajor_val_one]
    exact (Shape.rowMajorPi_zero _ i).symm)

/-- One entry `o` of a vector, sliced out as a one-element vector. -/
theorem pick_entry {n : Nat} (o : Nat) (k : Fin n) (hk : k.val = o) (v : (⟨1, ![n]⟩ : Shape).Idx → α)
    (h : (⟨1, ![n]⟩ : Shape).Slices ![o] ⟨1, ![1]⟩) :
    extractStridedSlice ⟨1, ![1]⟩ ![o] v h (ix1 (0 : Fin 1)) = v (ix1 k) :=
  extractStridedSlice_apply ![o] v h (ix1 (0 : Fin 1)) (ix1 k) fun d => match d with
    | ⟨0, _⟩ => by show k.val = o + 0; omega

/-- The first entry of every 8 × 128 tile of a rank-4 array. -/
theorem first_of_tile {n0 n1 : Nat} (v : (⟨4, ![n0, n1, 8, 128]⟩ : Shape).Idx → α)
    (h : (⟨4, ![n0, n1, 8, 128]⟩ : Shape).Slices ![0, 0, 0, 0] ⟨4, ![n0, n1, 1, 1]⟩) (a : Fin n0) (b : Fin n1) :
    extractStridedSlice ⟨4, ![n0, n1, 1, 1]⟩ ![0, 0, 0, 0] v h (ix4 a b (0 : Fin 1) (0 : Fin 1))
      = v (ix4 a b (0 : Fin 8) (0 : Fin 128)) :=
  extractStridedSlice_apply ![0, 0, 0, 0] v h (ix4 a b (0 : Fin 1) (0 : Fin 1)) (ix4 a b (0 : Fin 8) (0 : Fin 128)) fun d => match d with
    | ⟨0, _⟩ => by show a.val = 0 + a.val; omega
    | ⟨1, _⟩ => by show b.val = 0 + b.val; omega
    | ⟨2, _⟩ => rfl
    | ⟨3, _⟩ => rfl

/-- Dropping two trailing unit axes: entry (a, b) is the operand's (a, b, 0, 0). -/
theorem drop_two_units {n0 n1 : Nat} (v : (⟨4, ![n0, n1, 1, 1]⟩ : Shape).Idx → α)
    (h : (⟨4, ![n0, n1, 1, 1]⟩ : Shape).ShapeCasts ⟨2, ![n0, n1]⟩) (a : Fin n0) (b : Fin n1) :
    shapeCast ⟨2, ![n0, n1]⟩ v h (ix2 a b) = v (ix4 a b (0 : Fin 1) (0 : Fin 1)) :=
  shapeCast_apply v h (ix2 a b) (ix4 a b (0 : Fin 1) (0 : Fin 1)) (by
    rw [Shape.rowMajor_val_four, Shape.rowMajor_val_two]
    show ((a.val * n1 + b.val) * 1 + 0) * 1 + 0 = a.val * n1 + b.val
    omega)

/-- The host's float sum over the first axis of a 256 × 4 array, at column `k`: the initial value plus the sum down the column. -/
theorem host_sum_axis0 (v : FVec Ideal ⟨2, ![256, 4]⟩ .f32) (init : (⟨0, ![]⟩ : Shape).Idx → Ideal .f32)
    (h' : (⟨2, ![256, 4]⟩ : Shape).ReducesTo [0] ⟨1, ![4]⟩) (hu : 0 < (⟨0, ![]⟩ : Shape).numel) (k : Fin 4) :
    Host.reduceAdd (F := Ideal) v init h' hu (ix1 k) = init (Shape.Idx.first hu) + ∑ a : Fin 256, v (ix2 a k) := by
  have h : (⟨2, ![256, 4]⟩ : Shape).Reduces [0] ⟨1, ![4]⟩ := by decide
  refine (Ideal.hostReduceAdd_single h' h v _ (ix1 k)).trans ?_
  refine congrArg (_ + ·) (Finset.sum_congr rfl fun a _ => congrArg v (funext fun d => Fin.ext ?_))
  match d with
  | ⟨0, _⟩ => rfl
  | ⟨1, _⟩ => rfl

end Cert.Loss.Layout

end
-- ==== Proof.BlockSums.lean ====
/-
  What the kernel body leaves in its output block, as a function of its two input strips `X0`, `X1` (each 256 × 32 × 13):
  the [1, 4, 8, 128] block holds, on its four 8 × 128 tiles, the specification's four totals over the strips.

  Each of the body's four chains ends in sums over the feature axis (where there is one), over the strip's 32 rows and
  over the 256 batch entries, reshaped to a 1 × 1 vector and broadcast over a tile: read at one entry it is the iterated
  sum of a pointwise term, and the pointwise term is the specification's per-entry term (`box_strip`, `corner_strip`,
  `last_strip`, `mid_strip`). The four stores tile the block, so the block is one function of the block index: the total
  chosen by the index's second coordinate (`block_eq`).
-/
import proofs.«148467_j48945447306133_2_alg».proof.Proof.Gen.KernelIdeal.Frame
import proofs.«148467_j48945447306133_2_alg».proof.Proof.LossSpec
import proofs.«148467_j48945447306133_2_alg».proof.Proof.BlockLayout

noncomputable section

open scoped BigOperators

namespace Cert.KernelIdeal.BlockSums

open Cert.KernelIdeal Cert.KernelIdeal.Gen Cert.KernelIdeal.Facts₀ Cert.KernelIdeal.Facts Cert.Loss Cert.Loss.Layout
open Idealize.ShloMosaic Idealize.ShloMosaic.ValueIdx

/-! ## A strip's features -/

/-- The first four features of a strip, as the body slices them. -/
theorem corners_eq (X : Vec Ideal S256x32x13 .f32) :
    k0_pay3 (F := Ideal) X = fun j => X (ix3 (j 0) (j 1) (⟨(j 2).val, by have h : (j 2).val < 4 := (j 2).isLt; omega⟩ : Fin 13)) := by
  funext j
  obtain ⟨b, r, f, rfl⟩ : ∃ (b : Fin 256) (r : Fin 32) (f : Fin 4), j = ix3 b r f := ⟨j 0, j 1, j 2, eq_ix3 j⟩
  unfold k0_pay3
  exact slice_last 0 X _ b r f ⟨f.val, by omega⟩ (by show f.val = 0 + f.val; omega)

theorem corners_eq' (X : Vec Ideal S256x32x13 .f32) :
    k0_pay4 (F := Ideal) X = fun j => X (ix3 (j 0) (j 1) (⟨(j 2).val, by have h : (j 2).val < 4 := (j 2).isLt; omega⟩ : Fin 13)) := by
  funext j
  obtain ⟨b, r, f, rfl⟩ : ∃ (b : Fin 256) (r : Fin 32) (f : Fin 4), j = ix3 b r f := ⟨j 0, j 1, j 2, eq_ix3 j⟩
  unfold k0_pay4
  exact slice_last 0 X _ b r f ⟨f.val, by omega⟩ (by show f.val = 0 + f.val; omega)

/-- One corner feature `o` of a four-feature vector, its unit axis dropped: at (b, r) it is the vector's (b, r, o). -/
theorem corner_read (o : Nat) (ho : o < 4) (V : FVec Ideal S256x32x4 .f32) (h1 : S256x32x4.Slices ![0, 0, o] S256x32x1)
    (h2 : S256x32x1.ShapeCasts S256x32) (b : Fin 256) (r : Fin 32) :
    shapeCast S256x32 (extractStridedSlice S256x32x1 ![0, 0, o] V h1) h2 (ix2 b r) = V (ix3 b r (⟨o, ho⟩ : Fin 4)) :=
  (drop_last _ h2 b r).trans (slice_last o V h1 b r (0 : Fin 1) ⟨o, ho⟩ (by show o = o + 0; omega))

/-- The last feature, its unit axis dropped: at (b, r) it is the strip's (b, r, 12). -/
theorem last_read (X : Vec Ideal S256x32x13 .f32) (h1 : S256x32x13.Slices ![0, 0, 12] S256x32x1)
    (h2 : S256x32x1.ShapeCasts S256x32) (b : Fin 256) (r : Fin 32) :
    shapeCast S256x32 (extractStridedSlice S256x32x1 ![0, 0, 12] X h1) h2 (ix2 b r) = X (ix3 b r (12 : Fin 13)) :=
  (drop_last _ h2 b r).trans (slice_last 12 X h1 b r (0 : Fin 1) (12 : Fin 13) rfl)

/-- The eight middle features of a strip, as the body slices them. -/
theorem mids_eq (X : Vec Ideal S256x32x13 .f32) (h : S256x32x13.Slices ![0, 0, 4] S256x32x8) :
    extractStridedSlice S256x32x8 ![0, 0, 4] X h
      = fun j => X (ix3 (j 0) (j 1) (⟨4 + (j 2).val, by have h : (j 2).val < 8 := (j 2).isLt; omega⟩ : Fin 13)) := by
  funext j
  obtain ⟨b, r, f, rfl⟩ : ∃ (b : Fin 256) (r : Fin 32) (f : Fin 8), j = ix3 b r f := ⟨j 0, j 1, j 2, eq_ix3 j⟩
  exact slice_last 4 X h b r f ⟨4 + f.val, by omega⟩ rfl

/-- The absolute value of a vector at an entry. -/
theorem absf_at {s : Shape} (x : FVec Ideal s .f32) (i : s.Idx) : absf x i = max (x i) (-(x i)) := rfl

/-! ## The box chain -/

/-- The clipped overlap of the two boxes at every row of the strip. -/
theorem overlap_eq (X0 X1 : Vec Ideal S256x32x13 .f32) :
    k0_pay5 (F := Ideal) X0 X1 = fun j =>
      overlap (X0 (ix3 (j 0) (j 1) (0 : Fin 13))) (X0 (ix3 (j 0) (j 1) (1 : Fin 13))) (X0 (ix3 (j 0) (j 1) (2 : Fin 13))) (X0 (ix3 (j 0) (j 1) (3 : Fin 13)))
        (X1 (ix3 (j 0) (j 1) (0 : Fin 13))) (X1 (ix3 (j 0) (j 1) (1 : Fin 13))) (X1 (ix3 (j 0) (j 1) (2 : Fin 13))) (X1 (ix3 (j 0) (j 1) (3 : Fin 13))) := by
  funext j
  obtain ⟨b, r, rfl⟩ : ∃ (b : Fin 256) (r : Fin 32), j = ix2 b r := ⟨j 0, j 1, eq_ix2 j⟩
  unfold k0_pay5
  simp only [mulf_apply, maximumf_apply, minimumf_apply, subf_apply, broadcast_apply,
    corner_read 0 (by omega), corner_read 1 (by omega), corner_read 2 (by omega), corner_read 3 (by omega), corners_eq, corners_eq']
  rfl

/-- The target box's area at every row. -/
theorem area_eq (X0 : Vec Ideal S256x32x13 .f32) :
    k0_pay6 (F := Ideal) X0 = fun j =>
      (X0 (ix3 (j 0) (j 1) (2 : Fin 13)) - X0 (ix3 (j 0) (j 1) (0 : Fin 13))) * (X0 (ix3 (j 0) (j 1) (3 : Fin 13)) - X0 (ix3 (j 0) (j 1) (1 : Fin 13))) := by
  funext j
  obtain ⟨b, r, rfl⟩ : ∃ (b : Fin 256) (r : Fin 32), j = ix2 b r := ⟨j 0, j 1, eq_ix2 j⟩
  unfold k0_pay6
  simp only [mulf_apply, subf_apply,
    corner_read 0 (by omega), corner_read 1 (by omega), corner_read 2 (by omega), corner_read 3 (by omega), corners_eq]
  rfl

/-- The predicted box's width at every row. -/
theorem width_eq (X1 : Vec Ideal S256x32x13 .f32) :
    k0_pay7 (F := Ideal) X1 = fun j => X1 (ix3 (j 0) (j 1) (2 : Fin 13)) - X1 (ix3 (j 0) (j 1) (0 : Fin 13)) := by
  funext j
  obtain ⟨b, r, rfl⟩ : ∃ (b : Fin 256) (r : Fin 32), j = ix2 b r := ⟨j 0, j 1, eq_ix2 j⟩
  unfold k0_pay7
  simp only [subf_apply, corner_read 0 (by omega), corner_read 2 (by omega), corners_eq']
  rfl

/-- The predicted box's fourth and second corner features at every row. -/
theorem far_eq (X1 : Vec Ideal S256x32x13 .f32) :
    k0_pay8 (F := Ideal) X1 = fun j => X1 (ix3 (j 0) (j 1) (3 : Fin 13)) := by
  funext j
  obtain ⟨b, r, rfl⟩ : ∃ (b : Fin 256) (r : Fin 32), j = ix2 b r := ⟨j 0, j 1, eq_ix2 j⟩
  unfold k0_pay8
  simp only [corner_read 3 (by omega), corners_eq']
  rfl

theorem near_eq (X1 : Vec Ideal S256x32x13 .f32) :
    k0_pay9 (F := Ideal) X1 = fun j => X1 (ix3 (j 0) (j 1) (1 : Fin 13)) := by
  funext j
  obtain ⟨b, r, rfl⟩ : ∃ (b : Fin 256) (r : Fin 32), j = ix2 b r := ⟨j 0, j 1, eq_ix2 j⟩
  unfold k0_pay9
  simp only [corner_read 1 (by omega), corners_eq']
  rfl

/-- The box chain's one entry is the box total over the strip. -/
theorem box_strip (X0 X1 : Vec Ideal S256x32x13 .f32) :
    k0_pay10 (F := Ideal) (k0_pay5 X0 X1) (k0_pay6 X0) (k0_pay7 X1) (k0_pay8 X1) (k0_pay9 X1) (ix2 (0 : Fin 1) (0 : Fin 1))
      = boxTotal X0 X1 := by
  rw [overlap_eq, area_eq, width_eq, far_eq, near_eq]
  unfold k0_pay10
  dsimp only
  refine (add_last _ _ (0 : Fin 1)).trans ?_
  refine (sum_axis0 _ _ _ _).trans ?_
  unfold boxTotal
  refine Finset.sum_congr rfl fun b _ => ?_
  refine (add_last _ _ b).trans ?_
  refine (sum_axis1 _ _ _ _ b).trans ?_
  refine Finset.sum_congr rfl fun r _ => ?_
  rfl

/-! ## The corner chain -/

theorem corner_strip (X0 X1 : Vec Ideal S256x32x13 .f32) :
    k0_pay11 (F := Ideal) (k0_pay3 X0) (k0_pay4 X1) (ix2 (0 : Fin 1) (0 : Fin 1)) = cornerTotal X0 X1 := by
  rw [corners_eq, corners_eq']
  unfold k0_pay11
  dsimp only
  refine (add_last _ _ (0 : Fin 1)).trans ?_
  refine (sum_axis0 _ _ _ _).trans ?_
  unfold cornerTotal
  refine Finset.sum_congr rfl fun b _ => ?_
  refine (add_last _ _ b).trans ?_
  refine (sum_axis1 _ _ _ _ b).trans ?_
  refine Finset.sum_congr rfl fun r _ => ?_
  refine (sum_axis2 _ _ _ _ b r).trans ?_
  refine Finset.sum_congr rfl fun f _ => ?_
  rfl

/-! ## The last-feature chain -/

/-- The absolute difference of the two strips' last feature at every row. -/
theorem last_abs_eq (X0 X1 : Vec Ideal S256x32x13 .f32) :
    k0_pay12 (F := Ideal) X0 X1 = fun j =>
      max (X0 (ix3 (j 0) (j 1) (12 : Fin 13)) - X1 (ix3 (j 0) (j 1) (12 : Fin 13)))
        (-(X0 (ix3 (j 0) (j 1) (12 : Fin 13)) - X1 (ix3 (j 0) (j 1) (12 : Fin 13)))) := by
  funext j
  obtain ⟨b, r, rfl⟩ : ∃ (b : Fin 256) (r : Fin 32), j = ix2 b r := ⟨j 0, j 1, eq_ix2 j⟩
  unfold k0_pay12
  simp only [absf_at, subf_apply]
  rw [last_read X0 _ _ b r, last_read X1 _ _ b r]

/-- The last-feature chain, broadcast over a tile: every entry is the last-feature total over the strip. -/
theorem last_strip (X0 X1 : Vec Ideal S256x32x13 .f32) (s : Fin 8) (l : Fin 128) :
    k0_pay17 (F := Ideal) (k0_pay12 X0 X1) (k0_pay13 X0 X1) (Scalar.ofBits .f32 0x3F000000#32) (ix2 s l) = lastTotal X0 X1 := by
  unfold k0_pay13
  rw [last_abs_eq]
  unfold k0_pay17
  dsimp only
  refine (bcast_scalar _ _ s l).trans ?_
  refine (congrFun (shapeCast_self _ _) _).trans ?_
  refine (add_last _ _ (0 : Fin 1)).trans ?_
  refine (sum_axis0 _ _ _ _).trans ?_
  unfold lastTotal
  refine Finset.sum_congr rfl fun b _ => ?_
  refine (add_last _ _ b).trans ?_
  refine (sum_axis1 _ _ _ _ b).trans ?_
  refine Finset.sum_congr rfl fun r _ => ?_
  rfl

/-! ## The middle chain -/

theorem mid_strip (X0 X1 : Vec Ideal S256x32x13 .f32) :
    k0_pay14 (F := Ideal) X0 X1 (ix2 (0 : Fin 1) (0 : Fin 1)) = midTotal X0 X1 := by
  unfold k0_pay14
  rw [mids_eq X0, mids_eq X1]
  dsimp only
  refine (add_last _ _ (0 : Fin 1)).trans ?_
  refine (sum_axis0 _ _ _ _).trans ?_
  unfold midTotal
  refine Finset.sum_congr rfl fun b _ => ?_
  refine (add_last _ _ b).trans ?_
  refine (sum_axis1 _ _ _ _ b).trans ?_
  refine Finset.sum_congr rfl fun r _ => ?_
  refine (sum_axis2 _ _ _ _ b r).trans ?_
  refine Finset.sum_congr rfl fun f _ => ?_
  rfl

/-! ## A 1 × 1 value spread over a tile of the block -/

theorem spread15 (V : FVec Ideal S1x1 .f32) (a0 a1 : Fin 1) (s : Fin 8) (l : Fin 128) :
    k0_pay15 (F := Ideal) V (ix4 a0 a1 s l) = V (ix2 (0 : Fin 1) (0 : Fin 1)) := by
  unfold k0_pay15
  exact (tile_cast _ _ a0 a1 s l).trans ((bcast_scalar _ _ s l).trans (congrFun (shapeCast_self V _) _))

theorem spread16 (V : FVec Ideal S1x1 .f32) (a0 a1 : Fin 1) (s : Fin 8) (l : Fin 128) :
    k0_pay16 (F := Ideal) V (ix4 a0 a1 s l) = V (ix2 (0 : Fin 1) (0 : Fin 1)) := by
  unfold k0_pay16
  exact (tile_cast _ _ a0 a1 s l).trans ((bcast_scalar _ _ s l).trans (congrFun (shapeCast_self V _) _))

theorem spread2 (V : FVec Ideal S1x1 .f32) (a0 a1 : Fin 1) (s : Fin 8) (l : Fin 128) :
    k0_pay2 (F := Ideal) V (ix4 a0 a1 s l) = V (ix2 (0 : Fin 1) (0 : Fin 1)) := by
  unfold k0_pay2
  exact (tile_cast _ _ a0 a1 s l).trans ((bcast_scalar _ _ s l).trans (congrFun (shapeCast_self V _) _))

theorem tile1 (W : FVec Ideal S8x128 .f32) (a0 a1 : Fin 1) (s : Fin 8) (l : Fin 128) :
    k0_pay1 (F := Ideal) W (ix4 a0 a1 s l) = W (ix2 s l) := by
  unfold k0_pay1
  exact tile_cast _ _ a0 a1 s l

/-! ## The block after the body -/

/-- The one of four values a tile number chooses. -/
def pick (k : Nat) (a b c d : EReal) : EReal := if k = 0 then a else if k = 1 then b else if k = 2 then c else d

/-- The output block as one function of its index (t', k, s, l): the k-th total over the strips. -/
def blockOf (X0 X1 : Vec Ideal S256x32x13 .f32) : Vec Ideal S1x4x8x128 .f32 :=
  fun y => pick (y 1).val (boxTotal X0 X1) (cornerTotal X0 X1) (lastTotal X0 X1) (midTotal X0 X1)

theorem hz3 : (![0, 0, 0] : Fin 3 → Nat) = fun _ => 0 := funext fun a => by fin_cases a <;> rfl

/-- What the body leaves in the output block is `blockOf` of the input strips: each of the four stores writes, over its tile,
    the total its chain computed, and the tiles cover the block. -/
theorem block_eq (X0 X1 : Vec Ideal S256x32x13 .f32) : out0_2 (F := Ideal) X0 X1 = blockOf X0 X1 := by
  funext y
  unfold out0_2
  simp only [View.ld_unit_zero (S := S256x32x13) hz3]
  refine View.canon_apply_of_pieces (blockOf X0 X1) _ ?_ y (cover0_2 _ _ _ _ y)
  intro p hp
  simp only [List.mem_cons, List.mem_nil_iff, or_false] at hp
  have hcoords : ∀ x : S1x1x8x128.Idx, ∃ (a0 a1 : Fin 1) (s : Fin 8) (l : Fin 128), x = ix4 a0 a1 s l ∧ a1.val = 0 :=
    fun x => ⟨x 0, x 1, x 2, x 3, eq_ix4 x, by have h : (x 1).val < 1 := (x 1).isLt; omega⟩
  rcases hp with rfl | rfl | rfl | rfl <;> intro (x : S1x1x8x128.Idx) <;> obtain ⟨a0, a1, s, l, rfl, h1⟩ := hcoords x
  · refine ((spread2 _ a0 a1 s l).trans (mid_strip X0 X1)).trans ?_
    show midTotal X0 X1 = pick (3 + 1 * a1.val) _ _ _ _
    rw [h1]; rfl
  · refine ((tile1 _ a0 a1 s l).trans (last_strip X0 X1 s l)).trans ?_
    show lastTotal X0 X1 = pick (2 + 1 * a1.val) _ _ _ _
    rw [h1]; rfl
  · refine ((spread16 _ a0 a1 s l).trans (corner_strip X0 X1)).trans ?_
    show cornerTotal X0 X1 = pick (1 + 1 * a1.val) _ _ _ _
    rw [h1]; rfl
  · refine ((spread15 _ a0 a1 s l).trans (box_strip X0 X1)).trans ?_
    show boxTotal X0 X1 = pick (0 + 1 * a1.val) _ _ _ _
    rw [h1]; rfl

end Cert.KernelIdeal.BlockSums

end
-- ==== Proof.KernelLoss.lean ====
/-
  The kernel's run, read: its result is the loss of `LossSpec` of its two arguments.

  At grid point t the two input windows hold strip t of the two argument arrays (rows 32·t … 32·t + 31 of every batch
  entry), so what the body leaves in the output block is the four totals over that strip (`BlockSums.block_eq`), and
  what point t writes back is block t of ONE array `outArr` of the arguments: at (t, k, ·, ·) the k-th total over strip t.
  The 256 blocks tile the [256, 4, 8, 128] output, so it ends holding `outArr`. The host lines after the region take
  entry (t, k, 0, 0) of it, add the 256 of them for each k from the word 0.0, and combine the four sums; by the
  re-association law of `LossSpec` (the strips' totals add up to the whole array's) that is `loss`.
-/
import proofs.«148467_j48945447306133_2_alg».proof.Proof.Gen.KernelIdeal.Frame
import proofs.«148467_j48945447306133_2_alg».proof.Proof.BlockSums
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.KernelLoss

open Cert.KernelIdeal Cert.KernelIdeal.Gen Cert.KernelIdeal.Facts₀ Cert.KernelIdeal.Facts Cert.KernelIdeal.BlockSums
open Cert.Loss Cert.Loss.Layout Idealize.ShloMosaic.ValueIdx

variable (m : (ℓ : Loc nD τ sig) → Buf (Elt Ideal) ℓ) (ρ : Dev nD → PrngReg)

/-- The two argument arrays on core `c`. -/
abbrev argT (c : Dev nD) : Arr 8192 := m ((c : Thread nD τ).loc main_arg0)
abbrev argP (c : Dev nD) : Arr 8192 := m ((c : Thread nD τ).loc main_arg1)

/-! ## The index maps over the grid -/

/-- The printed index maps, decided over the 256 grid points: the input windows move along the row axis with the
    point, the output window along its block axis. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

theorem lt256 (t : Fin cfg0.N) : t.val < 256 := by
  have hN : cfg0.N = 256 := N_0
  have := t.isLt
  omega

/-! ## The strips the input windows hold -/

/-- Strip number `n` of an array (the zero array past the last strip: never read). -/
def stripAt (T : Arr 8192) (n : Nat) : Arr 32 := if h : n < 256 then strip T ⟨n, h⟩ else fun _ => 0

theorem stripAt_val (T : Arr 8192) (t : Fin 256) : stripAt T t.val = strip T t := dif_pos t.isLt

/-- Input window 0 at point t holds strip t of the first argument. -/
theorem in_strip0 (c : Dev nD) (t : Fin cfg0.N) :
    (iblk m c 0 t : Vec Ideal S256x32x13 .f32) = stripAt (argT m c) t.val := by
  have ht : t.val < 256 := lt256 t
  obtain ⟨e0, e1, e2, -⟩ := idx_facts t
  unfold stripAt
  rw [dif_pos ht]
  funext y
  show V m c main_arg0 (((cfg0.win 0).blk t).view.emb y) = argT m c (ix3 (y 0) ⟨32 * t.val + (y 1).val, _⟩ (y 2))
  refine congrArg (argT m c) (funext fun a => Fin.ext ?_)
  match a with
  | ⟨0, _⟩ => show win0_0.index t (0 : Fin 3) * 256 + 1 * (y 0).val = (y 0).val; rw [e0]; omega
  | ⟨1, _⟩ => show win0_0.index t (1 : Fin 3) * 32 + 1 * (y 1).val = 32 * t.val + (y 1).val; rw [e1]; omega
  | ⟨2, _⟩ => show win0_0.index t (2 : Fin 3) * 13 + 1 * (y 2).val = (y 2).val; rw [e2]; omega

/-- Input window 1 at point t holds strip t of the second argument. -/
theorem in_strip1 (c : Dev nD) (t : Fin cfg0.N) :
    (iblk m c 1 t : Vec Ideal S256x32x13 .f32) = stripAt (argP m c) t.val := by
  have ht : t.val < 256 := lt256 t
  obtain ⟨-, -, -, e0, e1, e2, -⟩ := idx_facts t
  unfold stripAt
  rw [dif_pos ht]
  funext y
  show V m c main_arg1 (((cfg0.win 1).blk t).view.emb y) = argP m c (ix3 (y 0) ⟨32 * t.val + (y 1).val, _⟩ (y 2))
  refine congrArg (argP m c) (funext fun a => Fin.ext ?_)
  match a with
  | ⟨0, _⟩ => show win0_1.index t (0 : Fin 3) * 256 + 1 * (y 0).val = (y 0).val; rw [e0]; omega
  | ⟨1, _⟩ => show win0_1.index t (1 : Fin 3) * 32 + 1 * (y 1).val = 32 * t.val + (y 1).val; rw [e1]; omega
  | ⟨2, _⟩ => show win0_1.index t (2 : Fin 3) * 13 + 1 * (y 2).val = (y 2).val; rw [e2]; omega

/-- What the body leaves in the output block at point t: the four totals over strip t. -/
theorem after_eq (c : Dev nD) (t : Fin cfg0.N) :
    (dats m 0 c).after 2 t = blockOf (stripAt (argT m c) t.val) (stripAt (argP m c) t.val) := by
  rw [after0_2]
  exact (block_eq (iblk m c 0 t) (iblk m c 1 t)).trans (congrArg₂ blockOf (in_strip0 m c t) (in_strip1 m c t))

/-! ## The output array -/

/-- The output array as one function of the arguments: at (t, k, ·, ·) the k-th total over strip t. -/
def outArr (T P : Arr 8192) : S256x4x8x128.Idx → EReal := fun i =>
  pick (i 1).val (boxTotal (stripAt T (i 0).val) (stripAt P (i 0).val)) (cornerTotal (stripAt T (i 0).val) (stripAt P (i 0).val))
    (lastTotal (stripAt T (i 0).val) (stripAt P (i 0).val)) (midTotal (stripAt T (i 0).val) (stripAt P (i 0).val))

theorem outArr_apply (T P : Arr 8192) (i : S256x4x8x128.Idx) (n k : Nat) (h0 : (i 0).val = n) (h1 : (i 1).val = k) :
    outArr T P i = pick k (boxTotal (stripAt T n) (stripAt P n)) (cornerTotal (stripAt T n) (stripAt P n))
      (lastTotal (stripAt T n) (stripAt P n)) (midTotal (stripAt T n) (stripAt P n)) := by
  unfold outArr
  rw [h0, h1]

/-- What point t writes back is block t of `outArr` of the arguments. -/
theorem flushed_eq (c : Dev nD) (t : Fin cfg0.N) :
    (dats m 0 c).flushed 2 t = ((cfg0.win 2).blk t).view.read (Elt Ideal) (outArr (argT m c) (argP m c)) := by
  show (cfg0.win 2).cut (grid0.coords t) ((dats m 0 c).after 2 t) = _
  rw [after_eq]
  obtain ⟨-, -, -, -, -, -, e0, e1, -, -⟩ := idx_facts t
  funext j
  have h0 : ((((cfg0.win 2).blk t).view.emb j) (0 : Fin 4)).val = t.val := by
    show win0_2.index t (0 : Fin 4) * 1 + 1 * (j 0).val = t.val
    have hj : (j 0).val < 1 := (j 0).isLt
    rw [e0]; omega
  have h1 : ((((cfg0.win 2).blk t).view.emb j) (1 : Fin 4)).val = (j 1).val := by
    show win0_2.index t (1 : Fin 4) * 4 + 1 * (j 1).val = (j 1).val
    rw [e1]; omega
  exact (outArr_apply (argT m c) (argP m c) _ t.val (j 1).val h0 h1).symm

/-- An index of the output array is in point t's block iff each coordinate is in the block's range on its axis. -/
theorem mem_blk (t : Fin cfg0.N) (i : S256x4x8x128.Idx) :
    i ∈ ((cfg0.win 2).blk t).view.set ↔ ∀ a : Fin 4, win0_2.index t a * S1x4x8x128.size a ≤ (i a).val
      ∧ (i a).val < win0_2.index t a * S1x4x8x128.size a + S1x4x8x128.size a := by
  show i ∈ ((View.whole main_v0).slice (win0_2.rect t)).set ↔ _
  rw [View.set_slice_whole, Rect.mem_set_unit]
  exact Iff.rfl

/-- Every index of the output array is in the block of the point its first coordinate names. -/
theorem covered (i : S256x4x8x128.Idx) :
    ∃ t : Fin cfg0.N, (cfg0.win 2).flush t = true ∧ i ∈ ((cfg0.win 2).blk t).view.set := by
  have hN : cfg0.N = 256 := N_0
  have h0 : (i 0).val < 256 := (i 0).isLt
  have h1 : (i 1).val < 4 := (i 1).isLt
  have h2 : (i 2).val < 8 := (i 2).isLt
  have h3 : (i 3).val < 128 := (i 3).isLt
  obtain ⟨t, ht⟩ : ∃ t : Fin cfg0.N, t.val = (i 0).val := ⟨⟨(i 0).val, by omega⟩, rfl⟩
  obtain ⟨-, -, -, -, -, -, e0, e1, e2, e3⟩ := idx_facts t
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; rw [e0]; omega
  | ⟨1, _⟩ => show win0_2.index t (1 : Fin 4) * 4 ≤ (i 1).val ∧ (i 1).val < win0_2.index t (1 : Fin 4) * 4 + 4; rw [e1]; omega
  | ⟨2, _⟩ => show win0_2.index t (2 : Fin 4) * 8 ≤ (i 2).val ∧ (i 2).val < win0_2.index t (2 : Fin 4) * 8 + 8; rw [e2]; omega
  | ⟨3, _⟩ => show win0_2.index t (3 : Fin 4) * 128 ≤ (i 3).val ∧ (i 3).val < win0_2.index t (3 : Fin 4) * 128 + 128; rw [e3]; omega

/-- The output array after the run is `outArr` of the arguments. -/
theorem final_out (c : Dev nD) : (dats m 0 c).arrAt 2 cfg0.N = outArr (argT m c) (argP m c) :=
  (dats m 0 c).arrAt_eq_of_cover 2 (outArr (argT m c) (argP m c)) (fun t _ => flushed_eq m c t) covered

/-! ## The host lines after the region -/

/-- The host's sum over the 256 blocks of the first entry of each tile: a vector of four sums. -/
def colSum (OUT : FVec Ideal S256x4x8x128 .f32) : FVec Ideal S4 .f32 :=
  Host.reduceAdd (F := Ideal)
    (shapeCast S256x4 (extractStridedSlice S256x4x1x1 ![0, 0, 0, 0] OUT Facts₀.slices_S256x4x8x128_S256x4x1x1_0_0_0_0) Facts₀.shapeCasts_S256x4x1x1_S256x4)
    (constant (F := Ideal) S_ .f32 0x00000000#32) Facts₀.reducesTo_S256x4_S4_d0 Facts₀.h_S_

/-- One of the four sums, as a scalar. -/
def colEntry (OUT : FVec Ideal S256x4x8x128 .f32) (o : Nat) (h : S4.Slices ![o] S1) : FVec Ideal S_ .f32 :=
  shapeCast S_ (extractStridedSlice S1 ![o] (colSum OUT) h) Facts₀.shapeCasts_S1_S_

/-- The host lines after the region, as one function of the output array. -/
def hostTail (OUT : FVec Ideal S256x4x8x128 .f32) : FVec Ideal S_ .f32 :=
  addf (addf (addf
    (mulf (constant (F := Ideal) S_ .f32 0x3F800000#32)
      (Host.divf (F := Ideal) (colEntry OUT 0 Facts₀.slices_S4_S1_0) (constant (F := Ideal) S_ .f32 0x4A000000#32)))
    (mulf (constant (F := Ideal) S_ .f32 0x3F800000#32)
      (Host.divf (F := Ideal) (colEntry OUT 1 Facts₀.slices_S4_S1_1) (constant (F := Ideal) S_ .f32 0x4B000000#32))))
    (mulf (constant (F := Ideal) S_ .f32 0x3F800000#32)
      (Host.divf (F := Ideal) (colEntry OUT 2 Facts₀.slices_S4_S1_2) (constant (F := Ideal) S_ .f32 0x4A000000#32))))
    (mulf (constant (F := Ideal) S_ .f32 0x3F000000#32)
      (Host.divf (F := Ideal) (colEntry OUT 3 Facts₀.slices_S4_S1_3) (constant (F := Ideal) S_ .f32 0x4B800000#32)))

/-- Sum k: the word 0.0 plus the sum over the blocks of entry (t, k, 0, 0). -/
theorem colSum_apply (OUT : FVec Ideal S256x4x8x128 .f32) (k : Fin 4) :
    colSum OUT (ix1 k) = w0 + ∑ t : Fin 256, OUT (ix4 t k (0 : Fin 8) (0 : Fin 128)) := by
  unfold colSum
  refine (host_sum_axis0 _ _ _ _ k).trans ?_
  refine congrArg (w0 + ·) (Finset.sum_congr rfl fun t _ => ?_)
  exact (drop_two_units _ _ t k).trans (first_of_tile _ _ t k)

theorem colEntry_apply (OUT : FVec Ideal S256x4x8x128 .f32) (o : Nat) (k : Fin 4) (hk : k.val = o) (h : S4.Slices ![o] S1)
    (i : S_.Idx) : colEntry OUT o h i = w0 + ∑ t : Fin 256, OUT (ix4 t k (0 : Fin 8) (0 : Fin 128)) := by
  unfold colEntry
  exact (one_to_scalar _ _ i).trans ((pick_entry o k hk _ h).trans (colSum_apply OUT k))

/-- The tail at its one index: the four sums combined. -/
theorem hostTail_apply (OUT : FVec Ideal S256x4x8x128 .f32) (i : S_.Idx) :
    hostTail OUT i = combine (∑ t : Fin 256, OUT (ix4 t (0 : Fin 4) (0 : Fin 8) (0 : Fin 128)))
      (∑ t : Fin 256, OUT (ix4 t (1 : Fin 4) (0 : Fin 8) (0 : Fin 128)))
      (∑ t : Fin 256, OUT (ix4 t (2 : Fin 4) (0 : Fin 8) (0 : Fin 128)))
      (∑ t : Fin 256, OUT (ix4 t (3 : Fin 4) (0 : Fin 8) (0 : Fin 128))) := by
  unfold hostTail combine
  show w1 * Ideal.div (colEntry OUT 0 Facts₀.slices_S4_S1_0 i) wBoxes + w1 * Ideal.div (colEntry OUT 1 Facts₀.slices_S4_S1_1 i) wCorners
      + w1 * Ideal.div (colEntry OUT 2 Facts₀.slices_S4_S1_2 i) wBoxes + wHalf * Ideal.div (colEntry OUT 3 Facts₀.slices_S4_S1_3 i) wMids = _
  rw [colEntry_apply OUT 0 0 rfl, colEntry_apply OUT 1 1 rfl, colEntry_apply OUT 2 2 rfl, colEntry_apply OUT 3 3 rfl]

/-- The four column sums of `outArr` are the four totals over the whole arrays: the strips' totals add up. -/
theorem outArr_sums (T P : Arr 8192) :
    (∑ t : Fin 256, outArr T P (ix4 t (0 : Fin 4) (0 : Fin 8) (0 : Fin 128))) = boxTotal T P
    ∧ (∑ t : Fin 256, outArr T P (ix4 t (1 : Fin 4) (0 : Fin 8) (0 : Fin 128))) = cornerTotal T P
    ∧ (∑ t : Fin 256, outArr T P (ix4 t (2 : Fin 4) (0 : Fin 8) (0 : Fin 128))) = lastTotal T P
    ∧ (∑ t : Fin 256, outArr T P (ix4 t (3 : Fin 4) (0 : Fin 8) (0 : Fin 128))) = midTotal T P := by
  refine ⟨?_, ?_, ?_, ?_⟩
  · refine (Finset.sum_congr rfl fun t _ => ?_).trans (boxTotal_strips T P)
    rw [outArr_apply T P _ t.val 0 rfl rfl, stripAt_val, stripAt_val]; rfl
  · refine (Finset.sum_congr rfl fun t _ => ?_).trans (cornerTotal_strips T P)
    rw [outArr_apply T P _ t.val 1 rfl rfl, stripAt_val, stripAt_val]; rfl
  · refine (Finset.sum_congr rfl fun t _ => ?_).trans (lastTotal_strips T P)
    rw [outArr_apply T P _ t.val 2 rfl rfl, stripAt_val, stripAt_val]; rfl
  · refine (Finset.sum_congr rfl fun t _ => ?_).trans (midTotal_strips T P)
    rw [outArr_apply T P _ t.val 3 rfl rfl, stripAt_val, stripAt_val]; rfl

set_option maxHeartbeats 4000000 in
/-- The result buffer after the host lines: the loss of the arguments, at its one index. -/
theorem tail_eq (c : Dev nD) :
    Pipeline.afterTail₀ cfgs (dats m) 0 (V0 m) [hostOps1] c main_v22 = fun _ => loss (argT m c) (argP m c) := by
  unfold Pipeline.afterTail₀
  show StableHlo.after hostOps1 _ (Proc.devRef .tc main_v22) = _
  after_results_simp
  show hostTail (Pipeline.withArrays (cfgs 0).spec c (V0 m c) (fun w => (dats m 0 c).arrAt w (cfgs 0).N) (Proc.devRef .tc main_v0)) = _
  rw [show Pipeline.withArrays (cfgs 0).spec c (V0 m c) (fun w => (dats m 0 c).arrAt w (cfgs 0).N) (Proc.devRef .tc main_v0)
      = outArr (argT m c) (argP m c) from (Pipeline.withArrays_arr spec0 launch0.win.arr_inj c _ _ 2).trans (final_out m c)]
  funext i
  rw [hostTail_apply]
  obtain ⟨s1, s2, s3, s4⟩ := outArr_sums (argT m c) (argP m c)
  rw [s1, s2, s3, s4]
  rfl

/-! ## The run -/

/-- The frame run re-posted: the result at the loss of the arguments, the arguments unchanged. -/
theorem run : θ_run defs (onTc (τ := τ) (main (F := Ideal))) ⟨m, fun _ => 0, ρ⟩ fun r => ∀ c : Dev nD,
      r.2.mem ((c.tc : Thread nD τ).loc main_v22) = (fun _ => loss (argT m c) (argP m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v22 (Pipeline.mem_restRefs_of main_v22 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KernelLoss

end
-- ==== Proof.lean ====
/-
  A detection loss over two arrays of 256 × 8192 boxes with 13 features each — the smooth-L1 distance from 1 of the
  matched boxes' intersection over union, plus smooth-L1 distances of the corner features, of the last feature and of the
  eight middle features, each averaged over its entries and the four means combined with weights 1, 1, 1, ½ — computed
  two ways: by a kernel that walks the rows in 256 strips of 32, leaves the four totals over each strip in an output
  array, and lets the host add the 256 partial totals and combine them; and by a reference that takes each mean over
  the whole arrays at once.

  Over the extended reals the two agree on every input: every entry's term is the same function of the same entries on
  both sides (`LossSpec`: `boxAt`, `cornerAt`, `lastAt`, `midAt`), the counts and weights are the same words, and
  the only difference is the grouping of four finite sums, which is immaterial in a commutative monoid
  (`LossSpec.boxTotal_strips` and its three companions). No finiteness of the inputs is used: the precondition is never opened.

  The pieces: `RefLoss.ref_loss` (the reference's result is `loss` of its arguments), `KernelLoss.run` (the kernel's run
  ends with its result at `loss` of its arguments and the arguments unchanged), and below the five claims. The kernel's
  idealization rewrote nothing, so there is nothing to preserve beyond the program's own text.
-/
import proofs.«148467_j48945447306133_2_alg».proof.Defs
import proofs.«148467_j48945447306133_2_alg».proof.Proof.Gen.Kernel
import proofs.«148467_j48945447306133_2_alg».proof.Proof.Gen.Kernel.Skeleton
import proofs.«148467_j48945447306133_2_alg».proof.Proof.Gen.Kernel.Launch
import proofs.«148467_j48945447306133_2_alg».proof.Proof.Gen.Kernel.Points
import proofs.«148467_j48945447306133_2_alg».proof.Proof.Gen.Kernel.Frame
import proofs.«148467_j48945447306133_2_alg».proof.Proof.Gen.KernelIdeal
import proofs.«148467_j48945447306133_2_alg».proof.Proof.Gen.KernelIdeal.Skeleton
import proofs.«148467_j48945447306133_2_alg».proof.Proof.Gen.KernelIdeal.Launch
import proofs.«148467_j48945447306133_2_alg».proof.Proof.Gen.KernelIdeal.Points
import proofs.«148467_j48945447306133_2_alg».proof.Proof.Gen.KernelIdeal.Frame
import proofs.«148467_j48945447306133_2_alg».proof.Proof.Gen.ReferenceIdeal
import proofs.«148467_j48945447306133_2_alg».proof.Proof.RefRun
import proofs.«148467_j48945447306133_2_alg».proof.Proof.RefRead
import proofs.«148467_j48945447306133_2_alg».proof.Proof.RefLoss
import proofs.«148467_j48945447306133_2_alg».proof.Proof.KernelLoss
import proofs.«148467_j48945447306133_2_alg».proof.Proof.Gen.Pre_finite_inputs
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation: nothing to state. -/
theorem preserves : Cert.preserves_Kernel_KernelIdeal := trivial

/-- From memories that agree on the two arguments both programs end with the loss of those arguments. -/
theorem algebraic : Cert.algebraic_KernelIdeal_ReferenceIdeal := by
  intro m ρ m' ρ' _ hagree
  refine ⟨fun c => fun _ => Cert.Loss.loss (Cert.KernelIdeal.KernelLoss.argT m c) (Cert.KernelIdeal.KernelLoss.argP m c),
    Cert.KernelIdeal.KernelLoss.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v115_eq, (hagree c).1, (hagree c).2]
  funext i
  exact Cert.ReferenceIdeal.RefLoss.ref_loss _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
